-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v13_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x128 : Shape := ⟨3, ![32768, 1, 128]⟩
abbrev S2x32768x256 : Shape := ⟨3, ![2, 32768, 256]⟩
abbrev S768x128 : Shape := ⟨2, ![768, 128]⟩
abbrev S768x256 : Shape := ⟨2, ![768, 256]⟩
abbrev S768 : Shape := ⟨1, ![768]⟩
abbrev S32x256 : Shape := ⟨2, ![32, 256]⟩
abbrev S32 : Shape := ⟨1, ![32]⟩
abbrev S1x256 : Shape := ⟨2, ![1, 256]⟩
abbrev S1 : Shape := ⟨1, ![1]⟩
abbrev S_ : Shape := ⟨0, ![]⟩

class Facts : Prop where
  bcast_S_S32768x1x128 : S_.BroadcastsInDim S32768x1x128 (![] : Fin 0 → Fin S32768x1x128.rank)
  reducesTo_S32768x1x128_S_d0_1_2 : S32768x1x128.ReducesTo [0, 1, 2] S_
  h_S_ : 0 < S_.numel
  bcast_S_S2x32768x256 : S_.BroadcastsInDim S2x32768x256 (![] : Fin 0 → Fin S2x32768x256.rank)
  reducesTo_S2x32768x256_S_d0_1_2 : S2x32768x256.ReducesTo [0, 1, 2] S_
  bcast_S_S768x128 : S_.BroadcastsInDim S768x128 (![] : Fin 0 → Fin S768x128.rank)
  reducesTo_S768x128_S_d0_1 : S768x128.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32 .f32) (main_arg12 : FVec F S1x256 .f32) (main_arg13 : FVec F S1 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S768x256 .f32) (main_arg8 : FVec F S768 .f32) (main_arg9 : FVec F S768 .f32) (main_arg10 : FVec F S32x256 .f32) (main_arg11 : FVec F S32 .f32) (main_arg12 : FVec F S1x256 .f32) (main_arg13 : FVec F S1 .f32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S32x256 .f32 := Host.absf main_arg10
  let main_cst_18 : FVec F S_ .f32 := constant S_ .f32 0x7F800000#32
  let main_v50 : FVec F S32x256 .f32 := broadcastInDim S32x256 ![] bcast_S_S32x256 main_cst_18
  fn_part3 (F := F) main_arg11 main_arg12 main_arg13 main_v48 main_v49 main_v50

def fn_part1 {F : FTy → Type} [FloatOps F] (main_arg4 : FVec F S768 .f32) (main_arg5 : FVec F S768 .f32) (main_arg6 : FVec F S768x256 .f32) (main_arg7 : FVec F S768x256 .f32) (main_arg8 : FVec F S768 .f32) (main_arg9 : FVec F S768 .f32) (main_arg10 : FVec F S32x256 .f32) (main_arg11 : FVec F S32 .f32) (main_arg12 : FVec F S1x256 .f32) (main_arg13 : FVec F S1 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x1x128 .f32) (main_arg1 : FVec F S2x32768x256 .f32) (main_arg2 : FVec F S768x128 .f32) (main_arg3 : FVec F S768x256 .f32) (main_arg4 : FVec F S768 .f32) (main_arg5 : FVec F S768 .f32) (main_arg6 : FVec F S768x256 .f32) (main_arg7 : FVec F S768x256 .f32) (main_arg8 : FVec F S768 .f32) (main_arg9 : FVec F S768 .f32) (main_arg10 : FVec F S32x256 .f32) (main_arg11 : FVec F S32 .f32) (main_arg12 : FVec F S1x256 .f32) (main_arg13 : FVec F S1 .f32) : IVec S_ 1 :=
  let main_v0 : FVec F S32768x1x128 .f32 := Host.absf main_arg0
  let main_cst : FVec F S_ .f32 := constant S_ .f32 0x7F800000#32
  let main_v1 : FVec F S32768x1x128 .f32 := broadcastInDim S32768x1x128 ![] bcast_S_S32768x1x128 main_cst
  let main_v2 : IVec S32768x1x128 1 := cmpf .olt main_v0 main_v1
  let main_c : IVec S_ 1 := constantI S_ 1 1#1
  let main_v3 : IVec S_ 1 := (fun x v => Host.reduce IntOp.andi x v reducesTo_S32768x1x128_S_d0_1_2 h_S_) main_v2 main_c
  let main_v4 : FVec F S2x32768x256 .f32 := Host.absf main_arg1
  let main_cst_0 : FVec F S_ .f32 := constant S_ .f32 0x7F800000#32
  let main_v5 : FVec F S2x32768x256 .f32 := broadcastInDim S2x32768x256 ![] bcast_S_S2x32768x256 main_cst_0
  let main_v6 : IVec S2x32768x256 1 := cmpf .olt main_v4 main_v5
  let main_c_1 : IVec S_ 1 := constantI S_ 1 1#1
  let main_v7 : IVec S_ 1 := (fun x v => Host.reduce IntOp.andi x v reducesTo_S2x32768x256_S_d0_1_2 h_S_) main_v6 main_c_1
  let main_v8 : IVec S_ 1 := andi main_v3 main_v7
  let main_v9 : FVec F S768x128 .f32 := Host.absf main_arg2
  let main_cst_2 : FVec F S_ .f32 := constant S_ .f32 0x7F800000#32
  let main_v10 : FVec F S768x128 .f32 := broadcastInDim S768x128 ![] bcast_S_S768x128 main_cst_2
  let main_v11 : IVec S768x128 1 := cmpf .olt main_v9 main_v10
  let main_c_3 : IVec S_ 1 := constantI S_ 1 1#1
  let main_v12 : IVec S_ 1 := (fun x v => Host.reduce IntOp.andi x v reducesTo_S768x128_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x1x128 : Shape := ⟨3, ![32768, 1, 128]⟩
abbrev S2x32768x256 : Shape := ⟨3, ![2, 32768, 256]⟩
abbrev S768x128 : Shape := ⟨2, ![768, 128]⟩
abbrev S768x256 : Shape := ⟨2, ![768, 256]⟩
abbrev S768 : Shape := ⟨1, ![768]⟩
abbrev S32x256 : Shape := ⟨2, ![32, 256]⟩
abbrev S32 : Shape := ⟨1, ![32]⟩
abbrev S1x256 : Shape := ⟨2, ![1, 256]⟩
abbrev S1 : Shape := ⟨1, ![1]⟩
abbrev S32768x128 : Shape := ⟨2, ![32768, 128]⟩
abbrev S128x768 : Shape := ⟨2, ![128, 768]⟩
abbrev S256x768 : Shape := ⟨2, ![256, 768]⟩
abbrev S33x256 : Shape := ⟨2, ![33, 256]⟩
abbrev S256x33 : Shape := ⟨2, ![256, 33]⟩
abbrev S33 : Shape := ⟨1, ![33]⟩
abbrev S32768x33 : Shape := ⟨2, ![32768, 33]⟩
abbrev S1024x128 : Shape := ⟨2, ![1024, 128]⟩
abbrev S2x1024x256 : Shape := ⟨3, ![2, 1024, 256]⟩
abbrev S1024x33 : Shape := ⟨2, ![1024, 33]⟩
abbrev S1x1024x256 : Shape := ⟨3, ![1, 1024, 256]⟩
abbrev S1024x256 : Shape := ⟨2, ![1024, 256]⟩
abbrev S1024x768 : Shape := ⟨2, ![1024, 768]⟩
abbrev S1x768 : Shape := ⟨2, ![1, 768]⟩
abbrev S1x33 : Shape := ⟨2, ![1, 33]⟩
abbrev S32768x32 : Shape := ⟨2, ![32768, 32]⟩
abbrev S32768x1 : Shape := ⟨2, ![32768, 1]⟩
abbrev S32768 : Shape := ⟨1, ![32768]⟩

abbrev nBuf : Space → Nat
  | .hbm => 32
  | .vmem => 18
  | .smem => 0
  | _ => 0

abbrev bufTy : (tb : Table) → Fin (tcTables nBuf tb) → BufTy
  | .hbm, ⟨0, _⟩ => ⟨S32768x1x128, .f32⟩
  | .hbm, ⟨1, _⟩ => ⟨S2x32768x256, .f32⟩
  | .hbm, ⟨2, _⟩ => ⟨S768x128, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S32x256, .f32⟩
  | .hbm, ⟨11, _⟩ => ⟨S32, .f32⟩
  | .hbm, ⟨12, _⟩ => ⟨S1x256, .f32⟩
  | .hbm, ⟨13, _⟩ => ⟨S1, .f32⟩
  | .hbm, ⟨14, _⟩ => ⟨S32768x128, .f32⟩
  | .hbm, ⟨15, _⟩ => ⟨S128x768, .f32⟩
  | .hbm, ⟨16, _⟩ => ⟨S128x768, .bf16⟩
  | .hbm, ⟨17, _⟩ => ⟨S256x768, .f32⟩
  | .hbm, ⟨18, _⟩ => ⟨S256x768, .bf16⟩
  | .hbm, ⟨19, _⟩ => ⟨S256x768, .f32⟩
  | .hbm, ⟨20, _⟩ => ⟨S256x768, .bf16⟩
  | .hbm, ⟨21, _⟩ => ⟨S256x768, .f32⟩
  | .hbm, ⟨22, _⟩ => ⟨S256x768, .bf16⟩
  | .hbm, ⟨23, _⟩ => ⟨S33x256, .f32⟩
  | .hbm, ⟨24, _⟩ => ⟨S256x33, .f32⟩
  | .hbm, ⟨25, _⟩ => ⟨S256x33, .bf16⟩
  | .hbm, ⟨26, _⟩ => ⟨S33, .f32⟩
  | .hbm, ⟨27, _⟩ => ⟨S2x32768x256, .f32⟩
  | .hbm, ⟨28, _⟩ => ⟨S32768x33, .f32⟩
  | .hbm, ⟨29, _⟩ => ⟨S32768x32, .f32⟩
  | .hbm, ⟨30, _⟩ => ⟨S32768x1, .f32⟩
  | .hbm, ⟨31, _⟩ => ⟨S32768, .f32⟩
  | .local _ .vmem, ⟨0, _⟩ => ⟨S1024x128, .f32⟩
  | .local _ .vmem, ⟨1, _⟩ => ⟨S1024x128, .f32⟩
  | .local _ .vmem, ⟨2, _⟩ => ⟨S2x1024x256, .f32⟩
  | .local _ .vmem, ⟨3, _⟩ => ⟨S2x1024x256, .f32⟩
  | .local _ .vmem, ⟨4, _⟩ => ⟨S128x768, .bf16⟩
  | .local _ .vmem, ⟨5, _⟩ => ⟨S256x768, .bf16⟩
  | .local _ .vmem, ⟨6, _⟩ => ⟨S768, .f32⟩
  | .local _ .vmem, ⟨7, _⟩ => ⟨S768, .f32⟩
  | .local _ .vmem, ⟨8, _⟩ => ⟨S256x768, .bf16⟩
  | .local _ .vmem, ⟨9, _⟩ => ⟨S256x768, .bf16⟩
  | .local _ .vmem, ⟨10, _⟩ => ⟨S768, .f32⟩
  | .local _ .vmem, ⟨11, _⟩ => ⟨S768, .f32⟩
  | .local _ .vmem, ⟨12, _⟩ => ⟨S256x33, .bf16⟩
  | .local _ .vmem, ⟨13, _⟩ => ⟨S33, .f32⟩
  | .local _ .vmem, ⟨14, _⟩ => ⟨S2x1024x256, .f32⟩
  | .local _ .vmem, ⟨15, _⟩ => ⟨S2x1024x256, .f32⟩
  | .local _ .vmem, ⟨16, _⟩ => ⟨S1024x33, .f32⟩
  | .local _ .vmem, ⟨17, _⟩ => ⟨S1024x33, .f32⟩
  | _, _ => ⟨S32768x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x33 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S33 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x33 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S32768x1x128_S32768x128 : S32768x1x128.ShapeCasts S32768x128
  transposes_S768x128_S128x768_1_0 : S768x128.Transposes [1, 0] S128x768
  bitsLt_bf16_f32 : FTy.bits .bf16 < FTy.bits .f32
  transposes_S768x256_S256x768_1_0 : S768x256.Transposes [1, 0] S256x768
  concatenates_S32x256_S1x256_S33x256_d0 : Shape.Concatenates [S32x256, S1x256] S33x256 0
  transposes_S33x256_S256x33_1_0 : S33x256.Transposes [1, 0] S256x33
  concatenates_S32_S1_S33_d0 : Shape.Concatenates [S32, S1] S33 0
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  inb_S2x1024x256_S1x1024x256_1_0_0 : ∀ a, (![1, 0, 0] : Fin 3 → Nat) a + S1x1024x256.size a ≤ S2x1024x256.size a
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  shapeCasts_S1024x256_S1x1024x256 : S1024x256.ShapeCasts S1x1024x256
  inb_S256x33_S256x33_0_0 : ∀ a, (![0, 0] : Fin 2 → Nat) a + S256x33.size a ≤ S256x33.size a
  h_S256x33 : 0 < S256x33.numel
  shapeCasts_S256x33_S256x33 : S256x33.ShapeCasts S256x33
  inb_S33_S33_0 : ∀ a, (![0] : Fin 1 → Nat) a + S33.size a ≤ S33.size a
  h_S33 : 0 < S33.numel
  shapeCasts_S33_S33 : S33.ShapeCasts S33
  shapeCasts_S33_S1x33 : S33.ShapeCasts S1x33
  broadcasts_S1x33_S1024x33 : S1x33.Broadcasts S1024x33
  inb_S1024x33_S1024x33_0_0 : ∀ a, (![0, 0] : Fin 2 → Nat) a + S1024x33.size a ≤ S1024x33.size a
  h_S1024x33 : 0 < S1024x33.numel
  slices_S32768x33_S32768x32_0_0 : S32768x33.Slices ![0, 0] S32768x32
  slices_S32768x33_S32768x1_0_32 : S32768x33.Slices ![0, 32] S32768x1
  shapeCasts_S32768x1_S32768 : S32768x1.ShapeCasts S32768
  dot_S1024x128_S128x768_S1024x768_1_0_0_1_n_n_wf : DotDims.WF S1024x128 S128x768 S1024x768 [1] [0] [0] [1] [] []
  dot_S1024x256_S256x768_S1024x768_1_0_0_1_n_n_wf : DotDims.WF S1024x256 S256x768 S1024x768 [1] [0] [0] [1] [] []
  dot_S1024x256_S256x33_S1024x33_1_0_0_1_n_n_wf : DotDims.WF S1024x256 S256x33 S1024x33 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x256.size a ≤ S2x32768x256.size a
  hwx0_1 : ∀ i : grid0.Coords, EltTy.bits .f32 = 32 ∨ (Rect.block (s := S2x32768x256) S2x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .bf16 = 32 ∨ (Rect.block (s := S128x768) S128x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x768.size a ≤ S256x768.size a
  hwx0_6 : ∀ i : grid0.Coords, EltTy.bits .bf16 = 32 ∨ (Rect.block (s := S256x768) S256x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .bf16 = 32 ∨ (Rect.block (s := S256x768) S256x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768.size a ≤ S768.size a
  hwx0_8 : ∀ i : grid0.Coords, EltTy.bits .f32 = 32 ∨ (Rect.block (s := S768) S768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768.size a ≤ S768.size a
  hwx0_9 : ∀ i : grid0.Coords, EltTy.bits .f32 = 32 ∨ (Rect.block (s := S768) S768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x33.size a ≤ S256x33.size a
  hwx0_10 : ∀ i : grid0.Coords, EltTy.bits .bf16 = 32 ∨ (Rect.block (s := S256x33) S256x33.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S33.size a ≤ S33.size a
  hwx0_11 : ∀ i : grid0.Coords, EltTy.bits .f32 = 32 ∨ (Rect.block (s := S33) S33.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2x1024x256.size a ≤ S2x32768x256.size a
  hwx0_12 : ∀ i : grid0.Coords, EltTy.bits .f32 = 32 ∨ (Rect.block (s := S2x32768x256) S2x1024x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x33.size a ≤ S32768x33.size a
  hwx0_13 : ∀ i : grid0.Coords, EltTy.bits .f32 = 32 ∨ (Rect.block (s := S32768x33) S1024x33.size (cc0_transform_13 i) (hinb0_13 i)).WholeWords (EltTy.packing .f32)

variable [Facts₀]

def dot_S1024x128_S128x768_S1024x768_1_0_0_1_n_n : DotDims S1024x128 S128x768 S1024x768 where
  lhsContracting := [1]
  rhsContracting := [0]
  lhsNonContracting := [0]
  rhsNonContracting := [1]
  lhsBatch := []
  rhsBatch := []
  wf := dot_S1024x128_S128x768_S1024x768_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x33_S1024x33_1_0_0_1_n_n : DotDims S1024x256 S256x33 S1024x33 where
  lhsContracting := [1]
  rhsContracting := [0]
  lhsNonContracting := [0]
  rhsNonContracting := [1]
  lhsBatch := []
  rhsBatch := []
  wf := dot_S1024x256_S256x33_S1024x33_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S256x33.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S33.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13_0) S2x1024x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13_1) S1024x33.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32768x1x128 : Shape := ⟨3, ![32768, 1, 128]⟩
abbrev S2x32768x256 : Shape := ⟨3, ![2, 32768, 256]⟩
abbrev S768x128 : Shape := ⟨2, ![768, 128]⟩
abbrev S768x256 : Shape := ⟨2, ![768, 256]⟩
abbrev S768 : Shape := ⟨1, ![768]⟩
abbrev S32x256 : Shape := ⟨2, ![32, 256]⟩
abbrev S32 : Shape := ⟨1, ![32]⟩
abbrev S1x256 : Shape := ⟨2, ![1, 256]⟩
abbrev S1 : Shape := ⟨1, ![1]⟩
abbrev S32768x128 : Shape := ⟨2, ![32768, 128]⟩
abbrev S1x32768x256 : Shape := ⟨3, ![1, 32768, 256]⟩
abbrev S32768x256 : Shape := ⟨2, ![32768, 256]⟩
abbrev S128x768 : Shape := ⟨2, ![128, 768]⟩
abbrev S32768x768 : Shape := ⟨2, ![32768, 768]⟩
abbrev S1x768 : Shape := ⟨2, ![1, 768]⟩
abbrev S256x768 : Shape := ⟨2, ![256, 768]⟩
abbrev S_ : Shape := ⟨0, ![]⟩
abbrev S256x32 : Shape := ⟨2, ![256, 32]⟩
abbrev S32768x32 : Shape := ⟨2, ![32768, 32]⟩
abbrev S1x32 : Shape := ⟨2, ![1, 32]⟩
abbrev S256x1 : Shape := ⟨2, ![256, 1]⟩
abbrev S32768x1 : Shape := ⟨2, ![32768, 1]⟩
abbrev S1x1 : Shape := ⟨2, ![1, 1]⟩
abbrev S32768 : Shape := ⟨1, ![32768]⟩

abbrev nBuf : Space → Nat
  | .hbm => 119
  | .vmem => 0
  | .smem => 0
  | _ => 0

abbrev bufTy : (tb : Table) → Fin (tcTables nBuf tb) → BufTy
  | .hbm, ⟨0, _⟩ => ⟨S32768x1x128, .f32⟩
  | .hbm, ⟨1, _⟩ => ⟨S2x32768x256, .f32⟩
  | .hbm, ⟨2, _⟩ => ⟨S768x128, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S32x256, .f32⟩
  | .hbm, ⟨11, _⟩ => ⟨S32, .f32⟩
  | .hbm, ⟨12, _⟩ => ⟨S1x256, .f32⟩
  | .hbm, ⟨13, _⟩ => ⟨S1, .f32⟩
  | .hbm, ⟨14, _⟩ => ⟨S32768x128, .f32⟩
  | .hbm, ⟨15, _⟩ => ⟨S1x32768x256, .f32⟩
  | .hbm, ⟨16, _⟩ => ⟨S32768x256, .f32⟩
  | .hbm, ⟨17, _⟩ => ⟨S128x768, .f32⟩
  | .hbm, ⟨18, _⟩ => ⟨S32768x768, .f32⟩
  | .hbm, ⟨19, _⟩ => ⟨S1x768, .f32⟩
  | .hbm, ⟨20, _⟩ => ⟨S32768x768, .f32⟩
  | .hbm, ⟨21, _⟩ => ⟨S32768x768, .f32⟩
  | .hbm, ⟨22, _⟩ => ⟨S256x768, .f32⟩
  | .hbm, ⟨23, _⟩ => ⟨S32768x768, .f32⟩
  | .hbm, ⟨24, _⟩ => ⟨S1x768, .f32⟩
  | .hbm, ⟨25, _⟩ => ⟨S32768x768, .f32⟩
  | .hbm, ⟨26, _⟩ => ⟨S32768x768, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S_, .f32⟩
  | .hbm, ⟨40, _⟩ => ⟨S32768x256, .f32⟩
  | .hbm, ⟨41, _⟩ => ⟨S32768x256, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S_, .f32⟩
  | .hbm, ⟨46, _⟩ => ⟨S32768x256, .f32⟩
  | .hbm, ⟨47, _⟩ => ⟨S32768x256, .f32⟩
  | .hbm, ⟨48, _⟩ => ⟨S_, .f32⟩
  | .hbm, ⟨49, _⟩ => ⟨S32768x256, .f32⟩
  | .hbm, ⟨50, _⟩ => ⟨S32768x256, .f32⟩
  | .hbm, ⟨51, _⟩ => ⟨S32768x256, .f32⟩
  | .hbm, ⟨52, _⟩ => ⟨S32768x256, .f32⟩
  | .hbm, ⟨53, _⟩ => ⟨S32768x256, .f32⟩
  | .hbm, ⟨54, _⟩ => ⟨S_, .f32⟩
  | .hbm, ⟨55, _⟩ => ⟨S32768x256, .f32⟩
  | .hbm, ⟨56, _⟩ => ⟨S32768x256, .f32⟩
  | .hbm, ⟨57, _⟩ => ⟨S32768x256, .f32⟩
  | .hbm, ⟨58, _⟩ => ⟨S32768x256, .f32⟩
  | .hbm, ⟨59, _⟩ => ⟨S32768x256, .f32⟩
  | .hbm, ⟨60, _⟩ => ⟨S1x32768x256, .f32⟩
  | .hbm, ⟨61, _⟩ => ⟨S32768x256, .f32⟩
  | .hbm, ⟨62, _⟩ => ⟨S256x768, .f32⟩
  | .hbm, ⟨63, _⟩ => ⟨S32768x768, .f32⟩
  | .hbm, ⟨64, _⟩ => ⟨S1x768, .f32⟩
  | .hbm, ⟨65, _⟩ => ⟨S32768x768, .f32⟩
  | .hbm, ⟨66, _⟩ => ⟨S32768x768, .f32⟩
  | .hbm, ⟨67, _⟩ => ⟨S256x768, .f32⟩
  | .hbm, ⟨68, _⟩ => ⟨S32768x768, .f32⟩
  | .hbm, ⟨69, _⟩ => ⟨S1x768, .f32⟩
  | .hbm, ⟨70, _⟩ => ⟨S32768x768, .f32⟩
  | .hbm, ⟨71, _⟩ => ⟨S32768x768, .f32⟩
  | .hbm, ⟨72, _⟩ => ⟨S32768x256, .f32⟩
  | .hbm, ⟨73, _⟩ => ⟨S32768x256, .f32⟩
  | .hbm, ⟨74, _⟩ => ⟨S32768x256, .f32⟩
  | .hbm, ⟨75, _⟩ => ⟨S32768x256, .f32⟩
  | .hbm, ⟨76, _⟩ => ⟨S32768x256, .f32⟩
  | .hbm, ⟨77, _⟩ => ⟨S32768x256, .f32⟩
  | .hbm, ⟨78, _⟩ => ⟨S32768x256, .f32⟩
  | .hbm, ⟨79, _⟩ => ⟨S32768x256, .f32⟩
  | .hbm, ⟨80, _⟩ => ⟨S32768x256, .f32⟩
  | .hbm, ⟨81, _⟩ => ⟨S_, .f32⟩
  | .hbm, ⟨82, _⟩ => ⟨S32768x256, .f32⟩
  | .hbm, ⟨83, _⟩ => ⟨S32768x256, .f32⟩
  | .hbm, ⟨84, _⟩ => ⟨S_, .f32⟩
  | .hbm, ⟨85, _⟩ => ⟨S32768x256, .f32⟩
  | .hbm, ⟨86, _⟩ => ⟨S32768x256, .f32⟩
  | .hbm, ⟨87, _⟩ => ⟨S32768x256, .f32⟩
  | .hbm, ⟨88, _⟩ => ⟨S32768x256, .f32⟩
  | .hbm, ⟨89, _⟩ => ⟨S32768x256, .f32⟩
  | .hbm, ⟨90, _⟩ => ⟨S_, .f32⟩
  | .hbm, ⟨91, _⟩ => ⟨S32768x256, .f32⟩
  | .hbm, ⟨92, _⟩ => ⟨S32768x256, .f32⟩
  | .hbm, ⟨93, _⟩ => ⟨S_, .f32⟩
  | .hbm, ⟨94, _⟩ => ⟨S32768x256, .f32⟩
  | .hbm, ⟨95, _⟩ => ⟨S32768x256, .f32⟩
  | .hbm, ⟨96, _⟩ => ⟨S32768x256, .f32⟩
  | .hbm, ⟨97, _⟩ => ⟨S32768x256, .f32⟩
  | .hbm, ⟨98, _⟩ => ⟨S32768x256, .f32⟩
  | .hbm, ⟨99, _⟩ => ⟨S_, .f32⟩
  | .hbm, ⟨100, _⟩ => ⟨S32768x256, .f32⟩
  | .hbm, ⟨101, _⟩ => ⟨S32768x256, .f32⟩
  | .hbm, ⟨102, _⟩ => ⟨S32768x256, .f32⟩
  | .hbm, ⟨103, _⟩ => ⟨S32768x256, .f32⟩
  | .hbm, ⟨104, _⟩ => ⟨S32768x256, .f32⟩
  | .hbm, ⟨105, _⟩ => ⟨S256x32, .f32⟩
  | .hbm, ⟨106, _⟩ => ⟨S32768x32, .f32⟩
  | .hbm, ⟨107, _⟩ => ⟨S1x32, .f32⟩
  | .hbm, ⟨108, _⟩ => ⟨S32768x32, .f32⟩
  | .hbm, ⟨109, _⟩ => ⟨S32768x32, .f32⟩
  | .hbm, ⟨110, _⟩ => ⟨S256x1, .f32⟩
  | .hbm, ⟨111, _⟩ => ⟨S32768x1, .f32⟩
  | .hbm, ⟨112, _⟩ => ⟨S1x1, .f32⟩
  | .hbm, ⟨113, _⟩ => ⟨S32768x1, .f32⟩
  | .hbm, ⟨114, _⟩ => ⟨S32768x1, .f32⟩
  | .hbm, ⟨115, _⟩ => ⟨S32768, .f32⟩
  | .hbm, ⟨116, _⟩ => ⟨S1x32768x256, .f32⟩
  | .hbm, ⟨117, _⟩ => ⟨S1x32768x256, .f32⟩
  | .hbm, ⟨118, _⟩ => ⟨S2x32768x256, .f32⟩
  | _, _ => ⟨S32768x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_4 : Ref sig .tc := ⟨.hbm, 81, rfl⟩
abbrev main_v62 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_8 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩

abbrev nD : Nat := 1
abbrev τ : Topo := Topo.v7x

variable {F : FTy → Type} [FloatOps F]

class Facts₀ : Prop where
  shapeCasts_S32768x1x128_S32768x128 : S32768x1x128.ShapeCasts S32768x128
  slices_S2x32768x256_S1x32768x256_0_0_0 : S2x32768x256.Slices ![0, 0, 0] S1x32768x256
  shapeCasts_S1x32768x256_S32768x256 : S1x32768x256.ShapeCasts S32768x256
  transposes_S768x128_S128x768_1_0 : S768x128.Transposes [1, 0] S128x768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  transposes_S768x256_S256x768_1_0 : S768x256.Transposes [1, 0] S256x768
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  bcast_S_S32768x256 : S_.BroadcastsInDim S32768x256 (![] : Fin 0 → Fin S32768x256.rank)
  slices_S2x32768x256_S1x32768x256_1_0_0 : S2x32768x256.Slices ![1, 0, 0] S1x32768x256
  transposes_S32x256_S256x32_1_0 : S32x256.Transposes [1, 0] S256x32
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  transposes_S1x256_S256x1_1_0 : S1x256.Transposes [1, 0] S256x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S32768 : S32768x1.ShapeCasts S32768
  bcast_S32768x256_S1x32768x256_1_2 : S32768x256.BroadcastsInDim S1x32768x256 (![1, 2] : Fin 2 → Fin S1x32768x256.rank)
  concatenates_S1x32768x256_S1x32768x256_S2x32768x256_d0 : Shape.Concatenates [S1x32768x256, S1x32768x256] S2x32768x256 0
  dot_S32768x128_S128x768_S32768x768_1_0_0_1_n_n_wf : DotDims.WF S32768x128 S128x768 S32768x768 [1] [0] [0] [1] [] []
  dot_S32768x256_S256x768_S32768x768_1_0_0_1_n_n_wf : DotDims.WF S32768x256 S256x768 S32768x768 [1] [0] [0] [1] [] []
  dot_S32768x256_S256x32_S32768x32_1_0_0_1_n_n_wf : DotDims.WF S32768x256 S256x32 S32768x32 [1] [0] [0] [1] [] []
  dot_S32768x256_S256x1_S32768x1_1_0_0_1_n_n_wf : DotDims.WF S32768x256 S256x1 S32768x1 [1] [0] [0] [1] [] []

variable [Facts₀]

def dot_S32768x128_S128x768_S32768x768_1_0_0_1_n_n : DotDims S32768x128 S128x768 S32768x768 where
  lhsContracting := [1]
  rhsContracting := [0]
  lhsNonContracting := [0]
  rhsNonContracting := [1]
  lhsBatch := []
  rhsBatch := []
  wf := dot_S32768x128_S128x768_S32768x768_1_0_0_1_n_n_wf
def dot_S32768x256_S256x768_S32768x768_1_0_0_1_n_n : DotDims S32768x256 S256x768 S32768x768 where
  lhsContracting := [1]
  rhsContracting := [0]
  lhsNonContracting := [0]
  rhsNonContracting := [1]
  lhsBatch := []
  rhsBatch := []
  wf := dot_S32768x256_S256x768_S32768x768_1_0_0_1_n_n_wf
def dot_S32768x256_S256x32_S32768x32_1_0_0_1_n_n : DotDims S32768x256 S256x32 S32768x32 where
  lhsContracting := [1]
  rhsContracting := [0]
  lhsNonContracting := [0]
  rhsNonContracting := [1]
  lhsBatch := []
  rhsBatch := []
  wf := dot_S32768x256_S256x32_S32768x32_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf

class Facts : Prop extends Facts₀ where

variable [Facts]
-- ==== Proof.Spec.lean ====
/-
  One step of a two-layer stacked GRU with a policy head and a value head, as ONE function of the
  fourteen argument arrays, index by index, over the extended reals.

  For a batch row b (of 32768), with x_b the row's 128 inputs and h⁰_b, h¹_b its two hidden rows (256 wide):

    pre x W β c   =  (Σ_k x k · W c k) + β c                    (one of the 768 gate pre-activations)
    cell gi gh h q = (1 − z) · n + z · h q,   where, the 768 columns read as three bands of 256,
                       r = σ (gi q + gh q),  z = σ (gi (256+q) + gh (256+q)),
                       n = tanh (gi (512+q) + r · gh (512+q)),
                     σ the logistic function  1 / (1 + e^(−t)),

    H0 b = cell (pre x_b  W_ih0 b_ih0) (pre h⁰_b W_hh0 b_hh0) h⁰_b        (layer 0's new hidden row)
    H1 b = cell (pre (H0 b) W_ih1 b_ih1) (pre h¹_b W_hh1 b_hh1) h¹_b      (layer 1's)
    logits b a = (Σ_k H1 b k · W_p a k) + b_p a,     value b = (Σ_k H1 b k · W_v 0 k) + b_v 0,
    h_new = the two rows H0 b, H1 b stacked.

  Nothing here needs a finite input: both programs compute these very sums and products, so no law of
  the reals beyond reading the same expression twice is used.
-/
import Idealize.ShloMosaic.PureOps.Ideal
import Idealize.ShloMosaic.PureOps.Ideal.Laws
import Idealize.ShloMosaic.Lib.ValueIdx

noncomputable section

namespace Cert.Gru

open Idealize.ShloMosaic Idealize.ShloMosaic.ValueIdx

/-- The float literal 1.0 both programs write, as the extended real it denotes. -/
abbrev one : EReal := Ideal.ofBits .f32 0x3F800000#32

/-- The literal 1.0 is the real number one. -/
theorem one_eq : one = 1 := by
  simp [one, Ideal.ofBits, Ideal.ieee, -EReal.coe_mul]
  norm_num

/-- The logistic function spelt out with the literal 1.0 — negate, exponential, add one, divide one by it — is the
    logistic function. -/
theorem logistic_lit (x : EReal) : Ideal.div one (one + Ideal.exp (-x)) = Ideal.logistic x := by
  rw [one_eq]; rfl

/-- Column q of the first band of 256 among 768 columns. -/
def lo (q : Fin 256) : Fin 768 := ⟨q.val, by have := q.isLt; omega⟩
/-- Column q of the second band. -/
def mid (q : Fin 256) : Fin 768 := ⟨256 + q.val, by have := q.isLt; omega⟩
/-- Column q of the third band. -/
def hi (q : Fin 256) : Fin 768 := ⟨512 + q.val, by have := q.isLt; omega⟩

/-- Gate pre-activation c of a row x against the weight matrix W (one row of W per gate column) and bias β. -/
def pre {n : Nat} (x : Fin n → EReal) (W : Fin 768 → Fin n → EReal) (β : Fin 768 → EReal) (c : Fin 768) : EReal :=
  (∑ k : Fin n, x k * W c k) + β c

/-- The GRU cell's new hidden entry q from the input-side and hidden-side pre-activations and the old hidden row. -/
def cell (gi gh : Fin 768 → EReal) (h : Fin 256 → EReal) (q : Fin 256) : EReal :=
  (one - Ideal.logistic (gi (mid q) + gh (mid q)))
      * Ideal.tanh (gi (hi q) + Ideal.logistic (gi (lo q) + gh (lo q)) * gh (hi q))
    + Ideal.logistic (gi (mid q) + gh (mid q)) * h q

/-- The pre-activation depends on the row only through its entries. -/
theorem pre_congr {n : Nat} {x x' : Fin n → EReal} (W : Fin 768 → Fin n → EReal) (β : Fin 768 → EReal)
    (e : ∀ k, x k = x' k) (c : Fin 768) : pre x W β c = pre x' W β c := by
  rw [show x = x' from funext e]

/-- The pre-activation depends on the row, the weights and the bias only through their entries. -/
theorem pre_congr3 {n : Nat} {x x' : Fin n → EReal} {W W' : Fin 768 → Fin n → EReal} {β β' : Fin 768 → EReal}
    (ex : ∀ k, x k = x' k) (eW : ∀ c k, W c k = W' c k) (eβ : ∀ c, β c = β' c) (c : Fin 768) :
    pre x W β c = pre x' W' β' c := by
  rw [show x = x' from funext ex, show W = W' from funext fun c => funext (eW c), show β = β' from funext eβ]

/-- The cell depends on its three rows only through their entries. -/
theorem cell_congr {gi gi' gh gh' : Fin 768 → EReal} {h h' : Fin 256 → EReal}
    (e1 : ∀ c, gi c = gi' c) (e2 : ∀ c, gh c = gh' c) (e3 : ∀ k, h k = h' k) (q : Fin 256) :
    cell gi gh h q = cell gi' gh' h' q := by
  rw [show gi = gi' from funext e1, show gh = gh' from funext e2, show h = h' from funext e3]

/-- The fourteen argument arrays. -/
structure Inp where
  x : (⟨3, ![32768, 1, 128]⟩ : Shape).Idx → EReal
  h : (⟨3, ![2, 32768, 256]⟩ : Shape).Idx → EReal
  wi0 : (⟨2, ![768, 128]⟩ : Shape).Idx → EReal
  wh0 : (⟨2, ![768, 256]⟩ : Shape).Idx → EReal
  bi0 : (⟨1, ![768]⟩ : Shape).Idx → EReal
  bh0 : (⟨1, ![768]⟩ : Shape).Idx → EReal
  wi1 : (⟨2, ![768, 256]⟩ : Shape).Idx → EReal
  wh1 : (⟨2, ![768, 256]⟩ : Shape).Idx → EReal
  bi1 : (⟨1, ![768]⟩ : Shape).Idx → EReal
  bh1 : (⟨1, ![768]⟩ : Shape).Idx → EReal
  wp : (⟨2, ![32, 256]⟩ : Shape).Idx → EReal
  bp : (⟨1, ![32]⟩ : Shape).Idx → EReal
  wv : (⟨2, ![1, 256]⟩ : Shape).Idx → EReal
  bv : (⟨1, ![1]⟩ : Shape).Idx → EReal

/-- Layer 0's new hidden row of batch row b. -/
def H0 (a : Inp) (b : Fin 32768) (q : Fin 256) : EReal :=
  cell (pre (fun k => a.x (ix3 b 0 k)) (fun c k => a.wi0 (ix2 c k)) (fun c => a.bi0 (ix1 c)))
    (pre (fun k => a.h (ix3 0 b k)) (fun c k => a.wh0 (ix2 c k)) (fun c => a.bh0 (ix1 c)))
    (fun k => a.h (ix3 0 b k)) q

/-- Layer 1's new hidden row of batch row b: the same cell fed layer 0's new row. -/
def H1 (a : Inp) (b : Fin 32768) (q : Fin 256) : EReal :=
  cell (pre (H0 a b) (fun c k => a.wi1 (ix2 c k)) (fun c => a.bi1 (ix1 c)))
    (pre (fun k => a.h (ix3 1 b k)) (fun c k => a.wh1 (ix2 c k)) (fun c => a.bh1 (ix1 c)))
    (fun k => a.h (ix3 1 b k)) q

/-- The policy head. -/
def logits (a : Inp) : (⟨2, ![32768, 32]⟩ : Shape).Idx → EReal := fun i =>
  (∑ k : Fin 256, H1 a (i 0) k * a.wp (ix2 (i 1) k)) + a.bp (ix1 (i 1))

/-- The value head. -/
def value (a : Inp) : (⟨1, ![32768]⟩ : Shape).Idx → EReal := fun i =>
  (∑ k : Fin 256, H1 a (i 0) k * a.wv (ix2 0 k)) + a.bv (ix1 0)

/-- The new hidden state: layer 0's rows, then layer 1's. -/
def hnew (a : Inp) : (⟨3, ![2, 32768, 256]⟩ : Shape).Idx → EReal := fun i =>
  if (i 0).val = 0 then H0 a (i 1) (i 2) else H1 a (i 1) (i 2)

/-- Both heads at once, against a fused head matrix given column by column (256 × 33) and a fused bias:
    what the kernel's second output window holds. -/
def heads (a : Inp) (wT : (⟨2, ![256, 33]⟩ : Shape).Idx → EReal) (β : (⟨1, ![33]⟩ : Shape).Idx → EReal) :
    (⟨2, ![32768, 33]⟩ : Shape).Idx → EReal := fun i =>
  (∑ k : Fin 256, H1 a (i 0) k * wT (ix2 k (i 1))) + β (ix1 (i 1))

end Cert.Gru

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.KPay.lean ====
/-
  The kernel body's arithmetic, read at an index, at the ideal values.

  Each of the body's four gate products is a [1024, K] block times a [K, 768] weight block into a zero
  accumulator plus a bias row broadcast down the rows: entry (p, c) is  (Σ_k X p k · W k c) + β c,
  the pre-activation "pre" of the specification with the weight read column-wise. The three bands of
  256 columns are slices at column offsets 0, 256, 512. With these the body's two cell payloads are the
  specification's "cell" entry by entry, and the head payload is again a row-by-column sum plus a bias.
-/
import proofs.«136802_j40381282517598_2_alg».proof.Proof.Gen.KernelIdeal.Skeleton
import proofs.«136802_j40381282517598_2_alg».proof.Proof.Spec
import proofs.«136802_j40381282517598_2_alg».proof.Proof.LibMatmulRowCol
import Idealize.ShloMosaic.Lib.Pipeline.Value
import Idealize.ShloMosaic.Lib.ValueIdx
import Idealize.ShloMosaic.PureOps.Ideal.Laws

set_option maxRecDepth 16384

noncomputable section

namespace Cert.KernelIdeal.Pay

open Cert.KernelIdeal Cert.KernelIdeal.Gen Idealize.ShloMosaic Idealize.ShloMosaic.ValueIdx Cert.Gru Cert.LibMatmul

/-! ## The body's three matrix products -/

/-- The [1024,128] × [128,768] product. -/
theorem mm128 {φ₁ φ₂ : FTy} (X : FVec Ideal S1024x128 φ₁) (W : FVec Ideal S128x768 φ₂) (p : Fin 1024) (c : Fin 768) :
    matmul dot_S1024x128_S128x768_S1024x768_1_0_0_1_n_n none X W (constant S1024x768 .f32 0x00000000#32) (ix2 p c)
      = ∑ k : Fin 128, X (ix2 p k) * W (ix2 k c) :=
  matmul_rowcol dot_S1024x128_S128x768_S1024x768_1_0_0_1_n_n rfl rfl
    (fun i q => by
      unfold DotDims.lhsIdx
      rw [dif_neg (show ¬(0 : Fin S1024x128.rank) ∈ dot_S1024x128_S128x768_S1024x768_1_0_0_1_n_n.lhsBatch by decide),
        dif_pos (show (0 : Fin S1024x128.rank) ∈ dot_S1024x128_S128x768_S1024x768_1_0_0_1_n_n.lhsNonContracting by decide)]
      rfl)
    (fun i q => dot_S1024x128_S128x768_S1024x768_1_0_0_1_n_n.lhsIdx_val_of_single rfl i q)
    (fun i q => dot_S1024x128_S128x768_S1024x768_1_0_0_1_n_n.rhsIdx_val_of_single rfl i q)
    (fun i q => by
      unfold DotDims.rhsIdx
      rw [dif_neg (show ¬(1 : Fin S128x768.rank) ∈ dot_S1024x128_S128x768_S1024x768_1_0_0_1_n_n.rhsBatch by decide),
        dif_pos (show (1 : Fin S128x768.rank) ∈ dot_S1024x128_S128x768_S1024x768_1_0_0_1_n_n.rhsNonContracting by decide)]
      rfl)
    X W p c

/-- The [1024,256] × [256,768] product. -/
theorem mm256 {φ₁ φ₂ : FTy} (X : FVec Ideal S1024x256 φ₁) (W : FVec Ideal S256x768 φ₂) (p : Fin 1024) (c : Fin 768) :
    matmul dot_S1024x256_S256x768_S1024x768_1_0_0_1_n_n none X W (constant S1024x768 .f32 0x00000000#32) (ix2 p c)
      = ∑ k : Fin 256, X (ix2 p k) * W (ix2 k c) :=
  matmul_rowcol dot_S1024x256_S256x768_S1024x768_1_0_0_1_n_n rfl rfl
    (fun i q => by
      unfold DotDims.lhsIdx
      rw [dif_neg (show ¬(0 : Fin S1024x256.rank) ∈ dot_S1024x256_S256x768_S1024x768_1_0_0_1_n_n.lhsBatch by decide),
        dif_pos (show (0 : Fin S1024x256.rank) ∈ dot_S1024x256_S256x768_S1024x768_1_0_0_1_n_n.lhsNonContracting by decide)]
      rfl)
    (fun i q => dot_S1024x256_S256x768_S1024x768_1_0_0_1_n_n.lhsIdx_val_of_single rfl i q)
    (fun i q => dot_S1024x256_S256x768_S1024x768_1_0_0_1_n_n.rhsIdx_val_of_single rfl i q)
    (fun i q => by
      unfold DotDims.rhsIdx
      rw [dif_neg (show ¬(1 : Fin S256x768.rank) ∈ dot_S1024x256_S256x768_S1024x768_1_0_0_1_n_n.rhsBatch by decide),
        dif_pos (show (1 : Fin S256x768.rank) ∈ dot_S1024x256_S256x768_S1024x768_1_0_0_1_n_n.rhsNonContracting by decide)]
      rfl)
    X W p c

/-- The [1024,256] × [256,33] product of the fused heads. -/
theorem mm33 {φ₁ φ₂ : FTy} (X : FVec Ideal S1024x256 φ₁) (W : FVec Ideal S256x33 φ₂) (p : Fin 1024) (c : Fin 33) :
    matmul dot_S1024x256_S256x33_S1024x33_1_0_0_1_n_n none X W (constant S1024x33 .f32 0x00000000#32) (ix2 p c)
      = ∑ k : Fin 256, X (ix2 p k) * W (ix2 k c) :=
  matmul_rowcol dot_S1024x256_S256x33_S1024x33_1_0_0_1_n_n rfl rfl
    (fun i q => by
      unfold DotDims.lhsIdx
      rw [dif_neg (show ¬(0 : Fin S1024x256.rank) ∈ dot_S1024x256_S256x33_S1024x33_1_0_0_1_n_n.lhsBatch by decide),
        dif_pos (show (0 : Fin S1024x256.rank) ∈ dot_S1024x256_S256x33_S1024x33_1_0_0_1_n_n.lhsNonContracting by decide)]
      rfl)
    (fun i q => dot_S1024x256_S256x33_S1024x33_1_0_0_1_n_n.lhsIdx_val_of_single rfl i q)
    (fun i q => dot_S1024x256_S256x33_S1024x33_1_0_0_1_n_n.rhsIdx_val_of_single rfl i q)
    (fun i q => by
      unfold DotDims.rhsIdx
      rw [dif_neg (show ¬(1 : Fin S256x33.rank) ∈ dot_S1024x256_S256x33_S1024x33_1_0_0_1_n_n.rhsBatch by decide),
        dif_pos (show (1 : Fin S256x33.rank) ∈ dot_S1024x256_S256x33_S1024x33_1_0_0_1_n_n.rhsNonContracting by decide)]
      rfl)
    X W p c

/-! ## The bias rows and the bands -/

/-- A length-768 bias viewed as one row and broadcast down 1024 rows reads its column. -/
theorem bias768 (β : FVec Ideal S768 .f32) (p : Fin 1024) (c : Fin 768) :
    broadcastTo S1024x768 (shapeCast S1x768 β shapeCasts_S768_S1x768) broadcasts_S1x768_S1024x768 (ix2 p c) = β (ix1 c) := by
  rw [broadcastTo_apply _ broadcasts_S1x768_S1024x768 (ix2 p c) (ix2 (0 : Fin 1) c) (fun a => by
      match a with
      | ⟨0, _⟩ => show (0 : Nat) = if (1 : Nat) = 1 then 0 else _; rw [if_pos rfl]
      | ⟨1, _⟩ => show c.val = if (768 : Nat) = 1 then 0 else c.val; rw [if_neg (by decide)]),
    shapeCast_apply β shapeCasts_S768_S1x768 (ix2 (0 : Fin 1) c) (ix1 c) (by
      rewrite [Shape.rowMajor_val_one, Shape.rowMajor_val_two]; show c.val = 0 * 768 + c.val; omega)]

/-- The same for the 33 fused head biases. -/
theorem bias33 (β : FVec Ideal S33 .f32) (p : Fin 1024) (c : Fin 33) :
    broadcastTo S1024x33 (shapeCast S1x33 (shapeCast S33 β shapeCasts_S33_S33) shapeCasts_S33_S1x33) broadcasts_S1x33_S1024x33 (ix2 p c) = β (ix1 c) := by
  rw [broadcastTo_apply _ broadcasts_S1x33_S1024x33 (ix2 p c) (ix2 (0 : Fin 1) c) (fun a => by
      match a with
      | ⟨0, _⟩ => show (0 : Nat) = if (1 : Nat) = 1 then 0 else _; rw [if_pos rfl]
      | ⟨1, _⟩ => show c.val = if (33 : Nat) = 1 then 0 else c.val; rw [if_neg (by decide)]),
    shapeCast_apply _ shapeCasts_S33_S1x33 (ix2 (0 : Fin 1) c) (ix1 c) (by
      rewrite [Shape.rowMajor_val_one, Shape.rowMajor_val_two]; show c.val = 0 * 33 + c.val; omega),
    shapeCast_self]

/-- The first band of a [1024,768] value. -/
theorem band0 (v : FVec Ideal S1024x768 .f32) (p : Fin 1024) (q : Fin 256) :
    extractStridedSlice S1024x256 ![0, 0] v slices_S1024x768_o0_0_S1024x256 (ix2 p q) = v (ix2 p (lo q)) :=
  extractStridedSlice_apply ![0, 0] v slices_S1024x768_o0_0_S1024x256 (ix2 p q) (ix2 p (lo q)) (fun a => by
    match a with
    | ⟨0, _⟩ => show p.val = 0 + p.val; omega
    | ⟨1, _⟩ => show q.val = 0 + q.val; omega)

/-- The second band. -/
theorem band1 (v : FVec Ideal S1024x768 .f32) (p : Fin 1024) (q : Fin 256) :
    extractStridedSlice S1024x256 ![0, 256] v slices_S1024x768_o0_256_S1024x256 (ix2 p q) = v (ix2 p (mid q)) :=
  extractStridedSlice_apply ![0, 256] v slices_S1024x768_o0_256_S1024x256 (ix2 p q) (ix2 p (mid q)) (fun a => by
    match a with
    | ⟨0, _⟩ => show p.val = 0 + p.val; omega
    | ⟨1, _⟩ => show 256 + q.val = 256 + q.val; rfl)

/-- The third band. -/
theorem band2 (v : FVec Ideal S1024x768 .f32) (p : Fin 1024) (q : Fin 256) :
    extractStridedSlice S1024x256 ![0, 512] v slices_S1024x768_o0_512_S1024x256 (ix2 p q) = v (ix2 p (hi q)) :=
  extractStridedSlice_apply ![0, 512] v slices_S1024x768_o0_512_S1024x256 (ix2 p q) (ix2 p (hi q)) (fun a => by
    match a with
    | ⟨0, _⟩ => show p.val = 0 + p.val; omega
    | ⟨1, _⟩ => show 512 + q.val = 512 + q.val; rfl)

/-- A [1,1024,256] block viewed [1024,256] reads (0, p, q) at (p, q). -/
theorem drop1 (v : FVec Ideal S1x1024x256 .f32) (p : Fin 1024) (q : Fin 256) :
    shapeCast S1024x256 v shapeCasts_S1x1024x256_S1024x256 (ix2 p q) = v (ix3 (0 : Fin 1) p q) :=
  shapeCast_apply v shapeCasts_S1x1024x256_S1024x256 (ix2 p q) (ix3 (0 : Fin 1) p q) (by
    rewrite [Shape.rowMajor_val_three, Shape.rowMajor_val_two]
    show (0 * 1024 + p.val) * 256 + q.val = p.val * 256 + q.val; omega)

/-- A [1024,256] value stored as a [1,1024,256] block reads (p, q) at (0, p, q). -/
theorem add1 (v : FVec Ideal S1024x256 .f32) (p : Fin 1024) (q : Fin 256) :
    shapeCast S1x1024x256 v shapeCasts_S1024x256_S1x1024x256 (ix3 (0 : Fin 1) p q) = v (ix2 p q) :=
  shapeCast_apply v shapeCasts_S1024x256_S1x1024x256 (ix3 (0 : Fin 1) p q) (ix2 p q) (by
    rewrite [Shape.rowMajor_val_three, Shape.rowMajor_val_two]
    show p.val * 256 + q.val = (0 * 1024 + p.val) * 256 + q.val; omega)

/-! ## The gates -/

/-- The input-side gate of layer 0: the x block (cast to bf16, the identity here) times the weight block, plus the bias row. -/
theorem gate128 (X : FVec Ideal S1024x128 .f32) (W : FVec Ideal S128x768 .bf16) (β : FVec Ideal S768 .f32) (p : Fin 1024) (c : Fin 768) :
    addf (matmul dot_S1024x128_S128x768_S1024x768_1_0_0_1_n_n none
        (truncf .bf16 (shapeCast S1024x128 X shapeCasts_S1024x128_S1024x128) bitsLt_bf16_f32)
        (shapeCast S128x768 W shapeCasts_S128x768_S128x768) (constant S1024x768 .f32 0x00000000#32))
      (broadcastTo S1024x768 (shapeCast S1x768 β shapeCasts_S768_S1x768) broadcasts_S1x768_S1024x768) (ix2 p c)
      = pre (fun k => X (ix2 p k)) (fun c k => W (ix2 k c)) (fun c => β (ix1 c)) c := by
  rw [addf_apply]
  rw [mm128, bias768, shapeCast_self, shapeCast_self]
  rfl

/-- A gate over a [1024,256] left operand. -/
theorem gate256 (X : FVec Ideal S1024x256 .bf16) (W : FVec Ideal S256x768 .bf16) (β : FVec Ideal S768 .f32) (p : Fin 1024) (c : Fin 768) :
    addf (matmul dot_S1024x256_S256x768_S1024x768_1_0_0_1_n_n none X
        (shapeCast S256x768 W shapeCasts_S256x768_S256x768) (constant S1024x768 .f32 0x00000000#32))
      (broadcastTo S1024x768 (shapeCast S1x768 β shapeCasts_S768_S1x768) broadcasts_S1x768_S1024x768) (ix2 p c)
      = pre (fun k => X (ix2 p k)) (fun c k => W (ix2 k c)) (fun c => β (ix1 c)) c := by
  rw [addf_apply]
  rw [mm256, bias768, shapeCast_self]
  rfl

/-! ## The cell -/

/-- The body's cell arithmetic over two [1024,768] pre-activation values and the old hidden block, at (p, q). -/
theorem cell_ops (gi gh : FVec Ideal S1024x768 .f32) (h : FVec Ideal S1024x256 .f32) (p : Fin 1024) (q : Fin 256) :
    addf
      (mulf
        (subf (broadcast S1024x256 (Scalar.ofBits (F := Ideal) .f32 0x3F800000#32))
          (logistic (addf (extractStridedSlice S1024x256 ![0, 256] gi slices_S1024x768_o0_256_S1024x256)
            (extractStridedSlice S1024x256 ![0, 256] gh slices_S1024x768_o0_256_S1024x256))))
        (tanh (addf (extractStridedSlice S1024x256 ![0, 512] gi slices_S1024x768_o0_512_S1024x256)
          (mulf (logistic (addf (extractStridedSlice S1024x256 ![0, 0] gi slices_S1024x768_o0_0_S1024x256)
              (extractStridedSlice S1024x256 ![0, 0] gh slices_S1024x768_o0_0_S1024x256)))
            (extractStridedSlice S1024x256 ![0, 512] gh slices_S1024x768_o0_512_S1024x256)))))
      (mulf (logistic (addf (extractStridedSlice S1024x256 ![0, 256] gi slices_S1024x768_o0_256_S1024x256)
          (extractStridedSlice S1024x256 ![0, 256] gh slices_S1024x768_o0_256_S1024x256))) h) (ix2 p q)
      = cell (fun c => gi (ix2 p c)) (fun c => gh (ix2 p c)) (fun k => h (ix2 p k)) q := by
  unfold cell
  beta_reduce
  rw [← band0 gi p q, ← band0 gh p q, ← band1 gi p q, ← band1 gh p q, ← band2 gi p q, ← band2 gh p q]
  rfl

/-- Layer 0's cell payload at (p, q). -/
theorem pay4_apply (v0 : Vec Ideal S1024x128 .f32) (v3 : Vec Ideal S1x1024x256 .f32) (v9 : Vec Ideal S128x768 .bf16)
    (v12 : Vec Ideal S768 .f32) (v16 : Vec Ideal S256x768 .bf16) (v19 : Vec Ideal S768 .f32) (p : Fin 1024) (q : Fin 256) :
    k0_pay4 v0 v3 v9 v12 v16 v19 (ix2 p q)
      = cell (pre (fun k => v0 (ix2 p k)) (fun c k => v9 (ix2 k c)) (fun c => v12 (ix1 c)))
          (pre (fun k => v3 (ix3 (0 : Fin 1) p k)) (fun c k => v16 (ix2 k c)) (fun c => v19 (ix1 c)))
          (fun k => v3 (ix3 (0 : Fin 1) p k)) q := by
  unfold k0_pay4
  refine (cell_ops _ _ _ p q).trans ?_
  exact cell_congr (fun c => gate128 v0 v9 v12 p c)
    (fun c => (gate256 _ v16 v19 p c).trans (pre_congr _ _ (fun k => drop1 v3 p k) c))
    (fun k => drop1 v3 p k) q

/-- Layer 1's cell payload at (p, q), over the values the body carries into it. -/
theorem pay6_apply (v6 : FVec Ideal S1024x256 .f32) (v8 : FVec Ideal S1024x256 .bf16) (v40 : FVec Ideal S1024x256 .f32)
    (v45 : Vec Ideal S256x768 .bf16) (v48 : Vec Ideal S768 .f32) (v52 : Vec Ideal S256x768 .bf16) (v55 : Vec Ideal S768 .f32)
    (p : Fin 1024) (q : Fin 256) :
    k0_pay6 v6 v8 v40 v45 v48 v52 v55 (ix2 p q)
      = cell (pre (fun k => v40 (ix2 p k)) (fun c k => v45 (ix2 k c)) (fun c => v48 (ix1 c)))
          (pre (fun k => v8 (ix2 p k)) (fun c k => v52 (ix2 k c)) (fun c => v55 (ix1 c)))
          (fun k => v6 (ix2 p k)) q := by
  unfold k0_pay6
  refine (cell_ops _ _ _ p q).trans ?_
  exact cell_congr (fun c => gate256 _ v45 v48 p c) (fun c => gate256 v8 v52 v55 p c) (fun k => rfl) q

/-- The fused heads' payload at (p, c). -/
theorem pay1_apply (v80 : FVec Ideal S1024x256 .bf16) (v82 : FVec Ideal S256x33 .bf16) (v84 : Vec Ideal S33 .f32)
    (p : Fin 1024) (c : Fin 33) :
    k0_pay1 v80 v82 v84 (ix2 p c) = (∑ k : Fin 256, v80 (ix2 p k) * v82 (ix2 k c)) + v84 (ix1 c) := by
  unfold k0_pay1
  rw [addf_apply]
  rw [mm33, bias33]

end Cert.KernelIdeal.Pay

end
-- ==== Proof.KBlock.lean ====
/-
  What the body leaves in its two output buffers, read at a block index.

  The body loads its whole input blocks (the stacked hidden block through its two halves), and writes the first
  output block in two halves — layer 0's new rows into half 0, layer 1's into half 1 — and the second output
  block whole. If the input blocks hold rows r p of the batch (p the row inside the block) and the weights
  column-wise, then entry (l, p, q) of the first output block is entry (l, r p, q) of the specification's new
  hidden state, and entry (p, c) of the second is the fused heads' entry (r p, c).
-/
import proofs.«136802_j40381282517598_2_alg».proof.Proof.Gen.KernelIdeal.Frame
import proofs.«136802_j40381282517598_2_alg».proof.Proof.KPay

set_option maxRecDepth 16384

noncomputable section

namespace Cert.KernelIdeal.Block

open Cert.KernelIdeal Cert.KernelIdeal.Gen Cert.KernelIdeal.Pay Idealize.ShloMosaic Idealize.ShloMosaic.ValueIdx Cert.Gru

theorem hz1 : (![0] : Fin 1 → Nat) = fun _ => 0 := funext fun a => by fin_cases a; rfl
theorem hz2 : (![0, 0] : Fin 2 → Nat) = fun _ => 0 := funext fun a => by fin_cases a <;> rfl

/-- Half 0 of the stacked hidden block, loaded, reads the block at (0, p, k). -/
theorem ld_half0 (x1 : Vec Ideal S2x1024x256 .f32) (p : Fin 1024) (k : Fin 256) :
    View.ld x1 r0_1 (ix3 (0 : Fin 1) p k) = x1 (ix3 (0 : Fin 2) p k) := by
  refine congrArg x1 (funext fun a => Fin.ext ?_)
  match a with
  | ⟨0, _⟩ => rfl
  | ⟨1, _⟩ => show 0 + 1 * p.val = p.val; omega
  | ⟨2, _⟩ => show 0 + 1 * k.val = k.val; omega

/-- Half 1 reads the block at (1, p, k). -/
theorem ld_half1 (x1 : Vec Ideal S2x1024x256 .f32) (p : Fin 1024) (k : Fin 256) :
    View.ld x1 r0_2 (ix3 (0 : Fin 1) p k) = x1 (ix3 (1 : Fin 2) p k) := by
  refine congrArg x1 (funext fun a => Fin.ext ?_)
  match a with
  | ⟨0, _⟩ => rfl
  | ⟨1, _⟩ => show 0 + 1 * p.val = p.val; omega
  | ⟨2, _⟩ => show 0 + 1 * k.val = k.val; omega

/-- A load of a whole block reads the block. -/
theorem ld0 (x : Vec Ideal S1024x128 .f32) (y : S1024x128.Idx) : View.ld x r0_0 y = x y :=
  congrFun (View.ld_unit_zero (S := S1024x128) hz2 _ x) y
theorem ld3 (x : Vec Ideal S128x768 .bf16) (y : S128x768.Idx) : View.ld x r0_3 y = x y :=
  congrFun (View.ld_unit_zero (S := S128x768) hz2 _ x) y
theorem ld4 (x : Vec Ideal S768 .f32) (y : S768.Idx) : View.ld x r0_4 y = x y :=
  congrFun (View.ld_unit_zero (S := S768) hz1 _ x) y
theorem ld5 (x : Vec Ideal S256x768 .bf16) (y : S256x768.Idx) : View.ld x r0_5 y = x y :=
  congrFun (View.ld_unit_zero (S := S256x768) hz2 _ x) y
theorem ld6 (x : Vec Ideal S256x33 .bf16) (y : S256x33.Idx) : View.ld x r0_6 y = x y :=
  congrFun (View.ld_unit_zero (S := S256x33) hz2 _ x) y
theorem ld7 (x : Vec Ideal S33 .f32) (y : S33.Idx) : View.ld x r0_7 y = x y :=
  congrFun (View.ld_unit_zero (S := S33) hz1 _ x) y

/-- The head matrix passes through the body unchanged. -/
theorem pay9_apply (v : Vec Ideal S256x33 .bf16) (y : S256x33.Idx) : k0_pay9 v y = v y := by
  unfold k0_pay9
  exact congrFun (shapeCast_self v shapeCasts_S256x33_S256x33) y

section Rows

variable (a : Inp) (r : Fin 1024 → Fin 32768)
  (x0 : Vec Ideal S1024x128 .f32) (x1 : Vec Ideal S2x1024x256 .f32) (x2 : Vec Ideal S128x768 .bf16) (x3 : Vec Ideal S256x768 .bf16)
  (x4 x5 : Vec Ideal S768 .f32) (x6 x7 : Vec Ideal S256x768 .bf16) (x8 x9 : Vec Ideal S768 .f32)
  (e0 : ∀ p k, x0 (ix2 p k) = a.x (ix3 (r p) 0 k))
  (e1 : ∀ l p k, x1 (ix3 l p k) = a.h (ix3 l (r p) k))
  (e2 : ∀ k c, x2 (ix2 k c) = a.wi0 (ix2 c k))
  (e3 : ∀ k c, x3 (ix2 k c) = a.wh0 (ix2 c k))
  (e4 : ∀ c, x4 (ix1 c) = a.bi0 (ix1 c))
  (e5 : ∀ c, x5 (ix1 c) = a.bh0 (ix1 c))
  (e6 : ∀ k c, x6 (ix2 k c) = a.wi1 (ix2 c k))
  (e7 : ∀ k c, x7 (ix2 k c) = a.wh1 (ix2 c k))
  (e8 : ∀ c, x8 (ix1 c) = a.bi1 (ix1 c))
  (e9 : ∀ c, x9 (ix1 c) = a.bh1 (ix1 c))

include e0 e1 e2 e3 e4 e5 in
/-- Layer 0's new hidden block is the specification's rows r p. -/
theorem row0 (p : Fin 1024) (q : Fin 256) :
    k0_pay4 (View.ld x0 r0_0) (View.ld x1 r0_1) (View.ld x2 r0_3) (View.ld x4 r0_4) (View.ld x3 r0_5) (View.ld x5 r0_4) (ix2 p q)
      = H0 a (r p) q := by
  rw [pay4_apply]
  unfold H0
  exact cell_congr
    (fun c => pre_congr3 (fun k => (ld0 x0 _).trans (e0 p k)) (fun c k => (ld3 x2 _).trans (e2 k c)) (fun c => (ld4 x4 _).trans (e4 c)) c)
    (fun c => pre_congr3 (fun k => (ld_half0 x1 p k).trans (e1 0 p k)) (fun c k => (ld5 x3 _).trans (e3 k c)) (fun c => (ld4 x5 _).trans (e5 c)) c)
    (fun k => (ld_half0 x1 p k).trans (e1 0 p k)) q

include e0 e1 e2 e3 e4 e5 e6 e7 e8 e9 in
/-- Layer 1's new hidden block is the specification's rows r p. -/
theorem row1 (p : Fin 1024) (q : Fin 256) :
    k0_pay6 (k0_pay2 (View.ld x1 r0_2)) (k0_pay3 (View.ld x1 r0_2))
        (k0_pay4 (View.ld x0 r0_0) (View.ld x1 r0_1) (View.ld x2 r0_3) (View.ld x4 r0_4) (View.ld x3 r0_5) (View.ld x5 r0_4))
        (View.ld x6 r0_5) (View.ld x8 r0_4) (View.ld x7 r0_5) (View.ld x9 r0_4) (ix2 p q)
      = H1 a (r p) q := by
  have hrow : ∀ k : Fin 256, k0_pay2 (F := Ideal) (View.ld x1 r0_2) (ix2 p k) = a.h (ix3 1 (r p) k) := fun k =>
    (drop1 (View.ld x1 r0_2) p k).trans ((ld_half1 x1 p k).trans (e1 1 p k))
  rw [pay6_apply]
  unfold H1
  exact cell_congr
    (fun c => pre_congr3 (fun k => row0 a r x0 x1 x2 x3 x4 x5 e0 e1 e2 e3 e4 e5 p k)
      (fun c k => (ld5 x6 _).trans (e6 k c)) (fun c => (ld4 x8 _).trans (e8 c)) c)
    (fun c => pre_congr3 (fun k => hrow k) (fun c k => (ld5 x7 _).trans (e7 k c)) (fun c => (ld4 x9 _).trans (e9 c)) c)
    hrow q

include e0 e1 e2 e3 e4 e5 e6 e7 e8 e9 in
/-- The first output block: the new hidden state's rows r p, both layers. -/
theorem out12_block (x10 : Vec Ideal S256x33 .bf16) (x11 : Vec Ideal S33 .f32) (l : Fin 2) (p : Fin 1024) (q : Fin 256) :
    out0_12 x0 x1 x2 x3 x4 x5 x6 x7 x8 x9 x10 x11 (ix3 l p q) = hnew a (ix3 l (r p) q) := by
  unfold out0_12
  match l with
  | ⟨0, _⟩ =>
    have hemb : r0_1.emb (ix3 (0 : Fin 1) p q) = ix3 (⟨0, by omega⟩ : Fin 2) p q := funext fun b => Fin.ext (by
      match b with
      | ⟨0, _⟩ => rfl
      | ⟨1, _⟩ => show 0 + 1 * p.val = p.val; omega
      | ⟨2, _⟩ => show 0 + 1 * q.val = q.val; omega)
    rw [← hemb, View.canon_cons_of_not_mem _ _ (by
      rw [hemb, Rect.mem_set_unit]
      intro h
      exact Nat.not_succ_le_zero 0 (h 0).1), View.canon_cons_emb]
    show k0_pay5 (F := Ideal) _ (ix3 (0 : Fin 1) p q) = H0 a (r p) q
    unfold k0_pay5
    rw [add1]
    exact row0 a r x0 x1 x2 x3 x4 x5 e0 e1 e2 e3 e4 e5 p q
  | ⟨1, _⟩ =>
    have hemb : r0_2.emb (ix3 (0 : Fin 1) p q) = ix3 (⟨1, by omega⟩ : Fin 2) p q := funext fun b => Fin.ext (by
      match b with
      | ⟨0, _⟩ => rfl
      | ⟨1, _⟩ => show 0 + 1 * p.val = p.val; omega
      | ⟨2, _⟩ => show 0 + 1 * q.val = q.val; omega)
    rw [← hemb, View.canon_cons_emb]
    show k0_pay7 (F := Ideal) _ _ _ _ _ _ _ (ix3 (0 : Fin 1) p q) = H1 a (r p) q
    unfold k0_pay7
    rw [add1]
    exact row1 a r x0 x1 x2 x3 x4 x5 x6 x7 x8 x9 e0 e1 e2 e3 e4 e5 e6 e7 e8 e9 p q

include e0 e1 e2 e3 e4 e5 e6 e7 e8 e9 in
/-- The second output block: the fused heads of rows r p, against the fused head matrix and bias as staged. -/
theorem out13_block (x10 : Vec Ideal S256x33 .bf16) (x11 : Vec Ideal S33 .f32) (p : Fin 1024) (c : Fin 33) :
    out0_13 x0 x1 x2 x3 x4 x5 x6 x7 x8 x9 x10 x11 (ix2 p c) = heads a x10 x11 (ix2 (r p) c) := by
  unfold out0_13
  rw [View.canon_unit_zero hz2, pay1_apply]
  unfold heads
  exact congrArg₂ (fun s t : EReal => s + t)
    (Finset.sum_congr rfl fun k _ => congrArg₂ (fun s t : EReal => s * t)
      (row1 a r x0 x1 x2 x3 x4 x5 x6 x7 x8 x9 e0 e1 e2 e3 e4 e5 e6 e7 e8 e9 p k)
      ((pay9_apply _ _).trans (ld6 x10 _)))
    (ld7 x11 _)

end Rows

end Cert.KernelIdeal.Block

end
-- ==== Proof.KArr.lean ====
/-
  From blocks to arrays, and through the host operations around the region.

  Grid point t stages rows t·1024 … t·1024+1023 of the batch: of x (reshaped to [32768,128] before the region) and
  of both layers of h; the weights arrive transposed (entry (k, c) is W c k) and whole, the biases whole. So what
  point t writes back is block t of the specification's new hidden state and of the fused heads; the 32 blocks
  tile both output arrays; and after the region the logits are the first 32 columns of the fused heads, the value
  its last column — the rows of w_p, resp. the one row of w_v, in the concatenated head matrix.
-/
import proofs.«136802_j40381282517598_2_alg».proof.Proof.Gen.KernelIdeal.Frame
import proofs.«136802_j40381282517598_2_alg».proof.Proof.KBlock
import Idealize.ShloMosaic.Lib.StableHlo.Run
import Idealize.ShloMosaic.Lib.Pipeline.Value

set_option maxRecDepth 16384

noncomputable section

namespace Cert.KernelIdeal.Arr

open Cert.KernelIdeal Cert.KernelIdeal.Gen Cert.KernelIdeal.Block Idealize.ShloMosaic Idealize.ShloMosaic.TcCoe
open Idealize.ShloMosaic.ValueIdx Idealize.ShloMosaic.StableHlo Idealize.SL.Sem Cert.Gru
open Idealize.ShloMosaic.Pipeline (Dat)

variable (m : (ℓ : Loc nD τ sig) → Buf (Elt Ideal) ℓ) (ρ : Dev nD → PrngReg)

/-- The argument arrays on core c, as the specification's record. -/
abbrev inp (c : Dev nD) : Inp :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12), m ((c : Thread nD τ).loc main_arg13)⟩

/-! ## The arrays the region finds, read at an index -/

/-- x with its unit axis dropped. -/
theorem V_x (c : Dev nD) (b : Fin 32768) (k : Fin 128) :
    (V m c main_v0 : S32768x128.Idx → EReal) (ix2 b k) = (inp m c).x (ix3 b 0 k) := by
  have e : (V m c main_v0 : S32768x128.Idx → EReal)
      = shapeCast S32768x128 (m ((c : Thread nD τ).loc main_arg0)) shapeCasts_S32768x1x128_S32768x128 := by
    show StableHlo.after hostOps0 (fun b => m (c, b)) (Proc.devRef .tc main_v0) = _
    after_results <;> rfl
  rw [e]
  exact shapeCast_apply _ shapeCasts_S32768x1x128_S32768x128 (ix2 b k) (ix3 b 0 k) (by
    rewrite [Shape.rowMajor_val_three, Shape.rowMajor_val_two]
    show (b.val * 1 + 0) * 128 + k.val = b.val * 128 + k.val; omega)

/-- The four transposed (and bf16-cast: the identity here) weight matrices read entry (k, c) at (c, k). -/
theorem V_wi0 (c : Dev nD) (k : Fin 128) (g : Fin 768) :
    (V m c main_v2 : S128x768.Idx → EReal) (ix2 k g) = (inp m c).wi0 (ix2 g k) := by
  have e : (V m c main_v2 : S128x768.Idx → EReal)
      = truncf (F := Ideal) .bf16 (transpose S128x768 [1, 0] (m ((c : Thread nD τ).loc main_arg2)) transposes_S768x128_S128x768_1_0) bitsLt_bf16_f32 := by
    show StableHlo.after hostOps0 (fun b => m (c, b)) (Proc.devRef .tc main_v2) = _
    after_results <;> rfl
  rw [e]
  exact transpose_apply [1, 0] _ transposes_S768x128_S128x768_1_0 (ix2 k g) (ix2 g k) (fun b => by
    match b with
    | ⟨0, _⟩ => rfl
    | ⟨1, _⟩ => rfl)

theorem V_wh0 (c : Dev nD) (k : Fin 256) (g : Fin 768) :
    (V m c main_v4 : S256x768.Idx → EReal) (ix2 k g) = (inp m c).wh0 (ix2 g k) := by
  have e : (V m c main_v4 : S256x768.Idx → EReal)
      = truncf (F := Ideal) .bf16 (transpose S256x768 [1, 0] (m ((c : Thread nD τ).loc main_arg3)) transposes_S768x256_S256x768_1_0) bitsLt_bf16_f32 := by
    show StableHlo.after hostOps0 (fun b => m (c, b)) (Proc.devRef .tc main_v4) = _
    after_results <;> rfl
  rw [e]
  exact transpose_apply [1, 0] _ transposes_S768x256_S256x768_1_0 (ix2 k g) (ix2 g k) (fun b => by
    match b with
    | ⟨0, _⟩ => rfl
    | ⟨1, _⟩ => rfl)

theorem V_wi1 (c : Dev nD) (k : Fin 256) (g : Fin 768) :
    (V m c main_v6 : S256x768.Idx → EReal) (ix2 k g) = (inp m c).wi1 (ix2 g k) := by
  have e : (V m c main_v6 : S256x768.Idx → EReal)
      = truncf (F := Ideal) .bf16 (transpose S256x768 [1, 0] (m ((c : Thread nD τ).loc main_arg6)) transposes_S768x256_S256x768_1_0) bitsLt_bf16_f32 := by
    show StableHlo.after hostOps0 (fun b => m (c, b)) (Proc.devRef .tc main_v6) = _
    after_results <;> rfl
  rw [e]
  exact transpose_apply [1, 0] _ transposes_S768x256_S256x768_1_0 (ix2 k g) (ix2 g k) (fun b => by
    match b with
    | ⟨0, _⟩ => rfl
    | ⟨1, _⟩ => rfl)

theorem V_wh1 (c : Dev nD) (k : Fin 256) (g : Fin 768) :
    (V m c main_v8 : S256x768.Idx → EReal) (ix2 k g) = (inp m c).wh1 (ix2 g k) := by
  have e : (V m c main_v8 : S256x768.Idx → EReal)
      = truncf (F := Ideal) .bf16 (transpose S256x768 [1, 0] (m ((c : Thread nD τ).loc main_arg7)) transposes_S768x256_S256x768_1_0) bitsLt_bf16_f32 := by
    show StableHlo.after hostOps0 (fun b => m (c, b)) (Proc.devRef .tc main_v8) = _
    after_results <;> rfl
  rw [e]
  exact transpose_apply [1, 0] _ transposes_S768x256_S256x768_1_0 (ix2 k g) (ix2 g k) (fun b => by
    match b with
    | ⟨0, _⟩ => rfl
    | ⟨1, _⟩ => rfl)

/-- The fused head matrix as staged: the rows of w_p, then the row of w_v, transposed. -/
theorem V_wpv (c : Dev nD) :
    (V m c main_v11 : S256x33.Idx → EReal)
      = truncf (F := Ideal) .bf16 (transpose S256x33 [1, 0]
          (concatenate S33x256 0 [⟨S32x256, m ((c : Thread nD τ).loc main_arg10)⟩, ⟨S1x256, m ((c : Thread nD τ).loc main_arg12)⟩] concatenates_S32x256_S1x256_S33x256_d0)
          transposes_S33x256_S256x33_1_0) bitsLt_bf16_f32 := by
  show StableHlo.after hostOps0 (fun b => m (c, b)) (Proc.devRef .tc main_v11) = _
  after_results <;> rfl

/-- The fused head bias as staged: b_p, then b_v. -/
theorem V_bpv (c : Dev nD) :
    (V m c main_v12 : S33.Idx → EReal)
      = concatenate S33 0 [⟨S32, m ((c : Thread nD τ).loc main_arg11)⟩, ⟨S1, m ((c : Thread nD τ).loc main_arg13)⟩] concatenates_S32_S1_S33_d0 := by
  show StableHlo.after hostOps0 (fun b => m (c, b)) (Proc.devRef .tc main_v12) = _
  after_results <;> rfl

/-! ## The index maps over the grid -/

theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0 ∧ win0_9.index t (0 : Fin 1) = 0
    ∧ win0_10.index t (0 : Fin 2) = 0 ∧ win0_10.index t (1 : Fin 2) = 0
    ∧ win0_11.index t (0 : Fin 1) = 0
    ∧ win0_12.index t (0 : Fin 3) = 0 ∧ win0_12.index t (1 : Fin 3) = t.val ∧ win0_12.index t (2 : Fin 3) = 0
    ∧ win0_13.index t (0 : Fin 2) = t.val ∧ win0_13.index t (1 : Fin 2) = 0 :=
  (by decide +kernel : ∀ t : Fin grid0.N, _)

/-- The batch row that row p of point t's blocks is. -/
def row (t : Fin cfg0.N) (p : Fin 1024) : Fin 32768 :=
  ⟨t.val * 1024 + p.val, by have ht : t.val < 32 := lt_of_lt_of_eq t.isLt N_0; have := p.isLt; omega⟩

/-! ## The input blocks at point t -/

section Blocks
variable (c : Dev nD) (t : Fin cfg0.N)

theorem blk0 (p : Fin 1024) (k : Fin 128) : iblk m c 0 t (ix2 p k) = (inp m c).x (ix3 (row t p) 0 k) := by
  obtain ⟨f0, f1, -⟩ := idx_facts t
  show (V m c main_v0 : S32768x128.Idx → EReal) (((cfg0.win 0).blk t).view.emb (ix2 p k)) = _
  rw [← V_x m c (row t p) k]
  refine congrArg _ (funext fun a => Fin.ext ?_)
  match a with
  | ⟨0, _⟩ => show win0_0.index t (0 : Fin 2) * 1024 + 1 * p.val = t.val * 1024 + p.val; rw [f0]; omega
  | ⟨1, _⟩ => show win0_0.index t (1 : Fin 2) * 128 + 1 * k.val = k.val; rw [f1]; omega

theorem blk1 (l : Fin 2) (p : Fin 1024) (k : Fin 256) : iblk m c 1 t (ix3 l p k) = (inp m c).h (ix3 l (row t p) k) := by
  obtain ⟨-, -, f0, f1, f2, -⟩ := idx_facts t
  show (V m c main_arg1 : S2x32768x256.Idx → EReal) (((cfg0.win 1).blk t).view.emb (ix3 l p k)) = _
  rw [V_main_arg1]
  refine congrArg (m ((c : Thread nD τ).loc main_arg1)) (funext fun a => Fin.ext ?_)
  match a with
  | ⟨0, _⟩ => show win0_1.index t (0 : Fin 3) * 2 + 1 * l.val = l.val; rw [f0]; omega
  | ⟨1, _⟩ => show win0_1.index t (1 : Fin 3) * 1024 + 1 * p.val = t.val * 1024 + p.val; rw [f1]; omega
  | ⟨2, _⟩ => show win0_1.index t (2 : Fin 3) * 256 + 1 * k.val = k.val; rw [f2]; omega

theorem blk2 (k : Fin 128) (g : Fin 768) : iblk m c 2 t (ix2 k g) = (inp m c).wi0 (ix2 g k) := by
  obtain ⟨-, -, -, -, -, f0, f1, -⟩ := idx_facts t
  show (V m c main_v2 : S128x768.Idx → EReal) (((cfg0.win 2).blk t).view.emb (ix2 k g)) = _
  rw [← V_wi0 m c k g]
  refine congrArg _ (funext fun a => Fin.ext ?_)
  match a with
  | ⟨0, _⟩ => show win0_2.index t (0 : Fin 2) * 128 + 1 * k.val = k.val; rw [f0]; omega
  | ⟨1, _⟩ => show win0_2.index t (1 : Fin 2) * 768 + 1 * g.val = g.val; rw [f1]; omega

theorem blk3 (k : Fin 256) (g : Fin 768) : iblk m c 3 t (ix2 k g) = (inp m c).wh0 (ix2 g k) := by
  obtain ⟨-, -, -, -, -, -, -, f0, f1, -⟩ := idx_facts t
  show (V m c main_v4 : S256x768.Idx → EReal) (((cfg0.win 3).blk t).view.emb (ix2 k g)) = _
  rw [← V_wh0 m c k g]
  refine congrArg _ (funext fun a => Fin.ext ?_)
  match a with
  | ⟨0, _⟩ => show win0_3.index t (0 : Fin 2) * 256 + 1 * k.val = k.val; rw [f0]; omega
  | ⟨1, _⟩ => show win0_3.index t (1 : Fin 2) * 768 + 1 * g.val = g.val; rw [f1]; omega

theorem blk4 (g : Fin 768) : iblk m c 4 t (ix1 g) = (inp m c).bi0 (ix1 g) := by
  obtain ⟨-, -, -, -, -, -, -, -, -, f0, -⟩ := idx_facts t
  show (V m c main_arg4 : S768.Idx → EReal) (((cfg0.win 4).blk t).view.emb (ix1 g)) = _
  rw [V_main_arg4]
  refine congrArg (m ((c : Thread nD τ).loc main_arg4)) (funext fun a => Fin.ext ?_)
  match a with
  | ⟨0, _⟩ => show win0_4.index t (0 : Fin 1) * 768 + 1 * g.val = g.val; rw [f0]; omega

theorem blk5 (g : Fin 768) : iblk m c 5 t (ix1 g) = (inp m c).bh0 (ix1 g) := by
  obtain ⟨-, -, -, -, -, -, -, -, -, -, f0, -⟩ := idx_facts t
  show (V m c main_arg5 : S768.Idx → EReal) (((cfg0.win 5).blk t).view.emb (ix1 g)) = _
  rw [V_main_arg5]
  refine congrArg (m ((c : Thread nD τ).loc main_arg5)) (funext fun a => Fin.ext ?_)
  match a with
  | ⟨0, _⟩ => show win0_5.index t (0 : Fin 1) * 768 + 1 * g.val = g.val; rw [f0]; omega

theorem blk6 (k : Fin 256) (g : Fin 768) : iblk m c 6 t (ix2 k g) = (inp m c).wi1 (ix2 g k) := by
  obtain ⟨-, -, -, -, -, -, -, -, -, -, -, f0, f1, -⟩ := idx_facts t
  show (V m c main_v6 : S256x768.Idx → EReal) (((cfg0.win 6).blk t).view.emb (ix2 k g)) = _
  rw [← V_wi1 m c k g]
  refine congrArg _ (funext fun a => Fin.ext ?_)
  match a with
  | ⟨0, _⟩ => show win0_6.index t (0 : Fin 2) * 256 + 1 * k.val = k.val; rw [f0]; omega
  | ⟨1, _⟩ => show win0_6.index t (1 : Fin 2) * 768 + 1 * g.val = g.val; rw [f1]; omega

theorem blk7 (k : Fin 256) (g : Fin 768) : iblk m c 7 t (ix2 k g) = (inp m c).wh1 (ix2 g k) := by
  obtain ⟨-, -, -, -, -, -, -, -, -, -, -, -, -, f0, f1, -⟩ := idx_facts t
  show (V m c main_v8 : S256x768.Idx → EReal) (((cfg0.win 7).blk t).view.emb (ix2 k g)) = _
  rw [← V_wh1 m c k g]
  refine congrArg _ (funext fun a => Fin.ext ?_)
  match a with
  | ⟨0, _⟩ => show win0_7.index t (0 : Fin 2) * 256 + 1 * k.val = k.val; rw [f0]; omega
  | ⟨1, _⟩ => show win0_7.index t (1 : Fin 2) * 768 + 1 * g.val = g.val; rw [f1]; omega

theorem blk8 (g : Fin 768) : iblk m c 8 t (ix1 g) = (inp m c).bi1 (ix1 g) := by
  obtain ⟨-, -, -, -, -, -, -, -, -, -, -, -, -, -, -, f0, -⟩ := idx_facts t
  show (V m c main_arg8 : S768.Idx → EReal) (((cfg0.win 8).blk t).view.emb (ix1 g)) = _
  rw [V_main_arg8]
  refine congrArg (m ((c : Thread nD τ).loc main_arg8)) (funext fun a => Fin.ext ?_)
  match a with
  | ⟨0, _⟩ => show win0_8.index t (0 : Fin 1) * 768 + 1 * g.val = g.val; rw [f0]; omega

theorem blk9 (g : Fin 768) : iblk m c 9 t (ix1 g) = (inp m c).bh1 (ix1 g) := by
  obtain ⟨-, -, -, -, -, -, -, -, -, -, -, -, -, -, -, -, f0, -⟩ := idx_facts t
  show (V m c main_arg9 : S768.Idx → EReal) (((cfg0.win 9).blk t).view.emb (ix1 g)) = _
  rw [V_main_arg9]
  refine congrArg (m ((c : Thread nD τ).loc main_arg9)) (funext fun a => Fin.ext ?_)
  match a with
  | ⟨0, _⟩ => show win0_9.index t (0 : Fin 1) * 768 + 1 * g.val = g.val; rw [f0]; omega

/-- The fused head matrix's block is the whole staged matrix. -/
theorem blk10 : (iblk m c 10 t : S256x33.Idx → EReal) = (V m c main_v11 : S256x33.Idx → EReal) := by
  obtain ⟨-, -, -, -, -, -, -, -, -, -, -, -, -, -, -, -, -, f0, f1, -⟩ := idx_facts t
  funext y
  show (V m c main_v11 : S256x33.Idx → EReal) (((cfg0.win 10).blk t).view.emb y) = _
  refine congrArg _ (funext fun a => Fin.ext ?_)
  match a with
  | ⟨0, _⟩ => show win0_10.index t (0 : Fin 2) * 256 + 1 * (y 0).val = (y 0).val; rw [f0]; omega
  | ⟨1, _⟩ => show win0_10.index t (1 : Fin 2) * 33 + 1 * (y 1).val = (y 1).val; rw [f1]; omega

/-- The fused bias's block is the whole staged bias. -/
theorem blk11 : (iblk m c 11 t : S33.Idx → EReal) = (V m c main_v12 : S33.Idx → EReal) := by
  obtain ⟨-, -, -, -, -, -, -, -, -, -, -, -, -, -, -, -, -, -, -, f0, -⟩ := idx_facts t
  funext y
  show (V m c main_v12 : S33.Idx → EReal) (((cfg0.win 11).blk t).view.emb y) = _
  refine congrArg _ (funext fun a => Fin.ext ?_)
  match a with
  | ⟨0, _⟩ => show win0_11.index t (0 : Fin 1) * 33 + 1 * (y 0).val = (y 0).val; rw [f0]; omega

end Blocks

/-! ## What a point writes back, the cover, the arrays after the run -/

/-- Point t writes back block t of the new hidden state. -/
theorem flushed12_eq (c : Dev nD) (t : Fin cfg0.N) :
    (dats m 0 c).flushed 12 t = ((cfg0.win 12).blk t).view.read (Elt Ideal) (hnew (inp m c)) := by
  show (cfg0.win 12).cut (grid0.coords t) ((dats m 0 c).after 12 t) = _
  rw [after0_12]
  obtain ⟨-, -, -, -, -, -, -, -, -, -, -, -, -, -, -, -, -, -, -, -, f0, f1, f2, -⟩ := idx_facts t
  funext y
  obtain ⟨l, p, q, rfl⟩ : ∃ (l : Fin 2) (p : Fin 1024) (q : Fin 256), y = ix3 l p q := ⟨y 0, y 1, y 2, eq_ix3 y⟩
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 l p q)
    = hnew (inp m c) (((cfg0.win 12).blk t).view.emb (ix3 l p q))
  have hemb : ((cfg0.win 12).blk t).view.emb (ix3 l p q) = ix3 l (row t p) q := funext fun a => Fin.ext (by
    match a with
    | ⟨0, _⟩ => show win0_12.index t (0 : Fin 3) * 2 + 1 * l.val = l.val; rw [f0]; omega
    | ⟨1, _⟩ => show win0_12.index t (1 : Fin 3) * 1024 + 1 * p.val = t.val * 1024 + p.val; rw [f1]; omega
    | ⟨2, _⟩ => show win0_12.index t (2 : Fin 3) * 256 + 1 * q.val = q.val; rw [f2]; omega)
  rw [hemb]
  exact out12_block (inp m c) (row t) (iblk m c 0 t) (iblk m c 1 t) (iblk m c 2 t) (iblk m c 3 t) (iblk m c 4 t) (iblk m c 5 t)
    (iblk m c 6 t) (iblk m c 7 t) (iblk m c 8 t) (iblk m c 9 t)
    (blk0 m c t) (blk1 m c t) (blk2 m c t) (blk3 m c t) (blk4 m c t) (blk5 m c t) (blk6 m c t) (blk7 m c t) (blk8 m c t) (blk9 m c t)
    (iblk m c 10 t) (iblk m c 11 t) l p q

/-- Point t writes back block t of the fused heads. -/
theorem flushed13_eq (c : Dev nD) (t : Fin cfg0.N) :
    (dats m 0 c).flushed 13 t
      = ((cfg0.win 13).blk t).view.read (Elt Ideal) (heads (inp m c) (V m c main_v11 : S256x33.Idx → EReal) (V m c main_v12 : S33.Idx → EReal)) := by
  show (cfg0.win 13).cut (grid0.coords t) ((dats m 0 c).after 13 t) = _
  rw [after0_13]
  obtain ⟨-, -, -, -, -, -, -, -, -, -, -, -, -, -, -, -, -, -, -, -, -, -, -, f0, f1⟩ := idx_facts t
  funext y
  obtain ⟨p, g, rfl⟩ : ∃ (p : Fin 1024) (g : Fin 33), y = ix2 p g := ⟨y 0, y 1, eq_ix2 y⟩
  show out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 p g)
    = heads (inp m c) (V m c main_v11 : S256x33.Idx → EReal) (V m c main_v12 : S33.Idx → EReal) (((cfg0.win 13).blk t).view.emb (ix2 p g))
  have hemb : ((cfg0.win 13).blk t).view.emb (ix2 p g) = ix2 (row t p) g := funext fun a => Fin.ext (by
    match a with
    | ⟨0, _⟩ => show win0_13.index t (0 : Fin 2) * 1024 + 1 * p.val = t.val * 1024 + p.val; rw [f0]; omega
    | ⟨1, _⟩ => show win0_13.index t (1 : Fin 2) * 33 + 1 * g.val = g.val; rw [f1]; omega)
  rw [hemb, ← blk10 m c t, ← blk11 m c t]
  exact out13_block (inp m c) (row t) (iblk m c 0 t) (iblk m c 1 t) (iblk m c 2 t) (iblk m c 3 t) (iblk m c 4 t) (iblk m c 5 t)
    (iblk m c 6 t) (iblk m c 7 t) (iblk m c 8 t) (iblk m c 9 t)
    (blk0 m c t) (blk1 m c t) (blk2 m c t) (blk3 m c t) (blk4 m c t) (blk5 m c t) (blk6 m c t) (blk7 m c t) (blk8 m c t) (blk9 m c t)
    (iblk m c 10 t) (iblk m c 11 t) p g

/-- An index of the hidden-state array is in point t's block iff each coordinate is in the block's range. -/
theorem mem_blk12 (t : Fin cfg0.N) (i : S2x32768x256.Idx) :
    i ∈ ((cfg0.win 12).blk t).view.set ↔ ∀ a : Fin 3, win0_12.index t a * S2x1024x256.size a ≤ (i a).val ∧ (i a).val < win0_12.index t a * S2x1024x256.size a + S2x1024x256.size a := by
  show i ∈ ((View.whole main_v13_0).slice (win0_12.rect t)).set ↔ _
  rw [View.set_slice_whole, Rect.mem_set_unit]
  exact Iff.rfl

theorem mem_blk13 (t : Fin cfg0.N) (i : S32768x33.Idx) :
    i ∈ ((cfg0.win 13).blk t).view.set ↔ ∀ a : Fin 2, win0_13.index t a * S1024x33.size a ≤ (i a).val ∧ (i a).val < win0_13.index t a * S1024x33.size a + S1024x33.size a := by
  show i ∈ ((View.whole main_v13_1).slice (win0_13.rect t)).set ↔ _
  rw [View.set_slice_whole, Rect.mem_set_unit]
  exact Iff.rfl

/-- The point whose blocks hold batch row b. -/
def pointOf (b : Fin 32768) : Fin cfg0.N := ⟨b.val / 1024, by rw [show cfg0.N = 32 from N_0]; have := b.isLt; omega⟩

/-- The hidden-state array after the run. -/
theorem final12 (c : Dev nD) : (dats m 0 c).arrAt 12 cfg0.N = hnew (inp m c) :=
  (dats m 0 c).arrAt_eq_of_cover 12 (hnew (inp m c)) (fun t _ => flushed12_eq m c t) (fun i => by
    refine ⟨pointOf (i 1), flush0_12 _, ?_⟩
    rw [mem_blk12]
    obtain ⟨-, -, -, -, -, -, -, -, -, -, -, -, -, -, -, -, -, -, -, -, f0, f1, f2, -⟩ := idx_facts (pointOf (i 1))
    have h0 : (i 0).val < 2 := (i 0).isLt
    have h1 : (i 1).val < 32768 := (i 1).isLt
    have h2 : (i 2).val < 256 := (i 2).isLt
    have hp : (pointOf (i 1)).val = (i 1).val / 1024 := rfl
    intro a
    match a with
    | ⟨0, _⟩ => show win0_12.index (pointOf (i 1)) (0 : Fin 3) * 2 ≤ (i 0).val ∧ (i 0).val < win0_12.index (pointOf (i 1)) (0 : Fin 3) * 2 + 2; rw [f0]; omega
    | ⟨1, _⟩ => show win0_12.index (pointOf (i 1)) (1 : Fin 3) * 1024 ≤ (i 1).val ∧ (i 1).val < win0_12.index (pointOf (i 1)) (1 : Fin 3) * 1024 + 1024; rw [f1, hp]; omega
    | ⟨2, _⟩ => show win0_12.index (pointOf (i 1)) (2 : Fin 3) * 256 ≤ (i 2).val ∧ (i 2).val < win0_12.index (pointOf (i 1)) (2 : Fin 3) * 256 + 256; rw [f2]; omega)

/-- The fused-heads array after the run. -/
theorem final13 (c : Dev nD) :
    (dats m 0 c).arrAt 13 cfg0.N = heads (inp m c) (V m c main_v11 : S256x33.Idx → EReal) (V m c main_v12 : S33.Idx → EReal) :=
  (dats m 0 c).arrAt_eq_of_cover 13 _ (fun t _ => flushed13_eq m c t) (fun i => by
    refine ⟨pointOf (i 0), flush0_13 _, ?_⟩
    rw [mem_blk13]
    obtain ⟨-, -, -, -, -, -, -, -, -, -, -, -, -, -, -, -, -, -, -, -, -, -, -, f0, f1⟩ := idx_facts (pointOf (i 0))
    have h0 : (i 0).val < 32768 := (i 0).isLt
    have h1 : (i 1).val < 33 := (i 1).isLt
    have hp : (pointOf (i 0)).val = (i 0).val / 1024 := rfl
    intro a
    match a with
    | ⟨0, _⟩ => show win0_13.index (pointOf (i 0)) (0 : Fin 2) * 1024 ≤ (i 0).val ∧ (i 0).val < win0_13.index (pointOf (i 0)) (0 : Fin 2) * 1024 + 1024; rw [f0, hp]; omega
    | ⟨1, _⟩ => show win0_13.index (pointOf (i 0)) (1 : Fin 2) * 33 ≤ (i 1).val ∧ (i 1).val < win0_13.index (pointOf (i 0)) (1 : Fin 2) * 33 + 33; rw [f1]; omega)

/-! ## The fused head matrix and bias, column by column -/

/-- Column a < 32 of the staged head matrix is row a of w_p. -/
theorem wpv_lo (c : Dev nD) (k : Fin 256) (a : Fin 32) :
    (V m c main_v11 : S256x33.Idx → EReal) (ix2 k (⟨a.val, by have := a.isLt; omega⟩ : Fin 33)) = (inp m c).wp (ix2 a k) := by
  rw [V_wpv]
  rw [truncf_apply]
  rw [transpose_apply [1, 0] _ transposes_S33x256_S256x33_1_0 (ix2 k (⟨a.val, by have := a.isLt; omega⟩ : Fin 33))
    (ix2 (⟨a.val, by have := a.isLt; omega⟩ : Fin 33) k) (fun b => by
      match b with
      | ⟨0, _⟩ => rfl
      | ⟨1, _⟩ => rfl)]
  exact concatenate_pair_apply_left (t := S33x256) (s₁ := S32x256) (s₂ := S1x256) (0 : Fin 2) _ _ concatenates_S32x256_S1x256_S33x256_d0
    (ix2 (⟨a.val, by have := a.isLt; omega⟩ : Fin 33) k) rfl (ix2 a k) (fun b => by
      match b with
      | ⟨0, _⟩ => rfl
      | ⟨1, _⟩ => rfl)

/-- Column 32 of the staged head matrix is the row of w_v. -/
theorem wpv_hi (c : Dev nD) (k : Fin 256) :
    (V m c main_v11 : S256x33.Idx → EReal) (ix2 k (⟨32, by omega⟩ : Fin 33)) = (inp m c).wv (ix2 0 k) := by
  rw [V_wpv]
  rw [truncf_apply]
  rw [transpose_apply [1, 0] _ transposes_S33x256_S256x33_1_0 (ix2 k (⟨32, by omega⟩ : Fin 33))
    (ix2 (⟨32, by omega⟩ : Fin 33) k) (fun b => by
      match b with
      | ⟨0, _⟩ => rfl
      | ⟨1, _⟩ => rfl)]
  exact concatenate_pair_apply_right (t := S33x256) (s₁ := S32x256) (s₂ := S1x256) (0 : Fin 2) _ _ concatenates_S32x256_S1x256_S33x256_d0
    (ix2 (⟨32, by omega⟩ : Fin 33) k) rfl rfl (ix2 (0 : Fin 1) k) (fun b hb => by
      match b with
      | ⟨0, _⟩ => exact absurd rfl hb
      | ⟨1, _⟩ => rfl) rfl

/-- Entry a < 32 of the staged head bias is entry a of b_p. -/
theorem bpv_lo (c : Dev nD) (a : Fin 32) :
    (V m c main_v12 : S33.Idx → EReal) (ix1 (⟨a.val, by have := a.isLt; omega⟩ : Fin 33)) = (inp m c).bp (ix1 a) := by
  rw [V_bpv]
  exact concatenate_pair_apply_left (t := S33) (s₁ := S32) (s₂ := S1) (0 : Fin 1) _ _ concatenates_S32_S1_S33_d0
    (ix1 (⟨a.val, by have := a.isLt; omega⟩ : Fin 33)) rfl (ix1 a) (fun b => by
      match b with
      | ⟨0, _⟩ => rfl)

/-- Entry 32 of the staged head bias is b_v. -/
theorem bpv_hi (c : Dev nD) :
    (V m c main_v12 : S33.Idx → EReal) (ix1 (⟨32, by omega⟩ : Fin 33)) = (inp m c).bv (ix1 0) := by
  rw [V_bpv]
  exact concatenate_pair_apply_right (t := S33) (s₁ := S32) (s₂ := S1) (0 : Fin 1) _ _ concatenates_S32_S1_S33_d0
    (ix1 (⟨32, by omega⟩ : Fin 33)) rfl rfl (ix1 (0 : Fin 1)) (fun b hb => by
      match b with
      | ⟨0, _⟩ => exact absurd rfl hb) rfl

/-! ## After the region -/

/-- What the region leaves in the fused-heads array, as the lines after it find it. -/
theorem exit13 (c : Dev nD) :
    Pipeline.withArrays (cfgs 0).spec c (V0 m c) (fun w => (dats m 0 c).arrAt w (cfgs 0).N) (Proc.devRef .tc main_v13_1)
      = heads (inp m c) (V m c main_v11 : S256x33.Idx → EReal) (V m c main_v12 : S33.Idx → EReal) :=
  (Pipeline.withArrays_arr spec0 launch0.win.arr_inj c _ _ 13).trans (final13 m c)

/-- The logits: the first 32 columns of the fused heads. -/
theorem tail_logits (c : Dev nD) :
    Pipeline.afterTail₀ cfgs (dats m) 0 (V0 m) [hostOps1] c main_v14 = logits (inp m c) := by
  unfold Pipeline.afterTail₀
  show StableHlo.after hostOps1 _ (Proc.devRef .tc main_v14) = _
  after_results
  rw [exit13]
  funext i
  obtain ⟨b, a, rfl⟩ : ∃ (b : Fin 32768) (a : Fin 32), i = ix2 b a := ⟨i 0, i 1, eq_ix2 i⟩
  rw [extractStridedSlice_apply ![0, 0] _ slices_S32768x33_S32768x32_0_0 (ix2 b a)
    (ix2 b (⟨a.val, by have := a.isLt; omega⟩ : Fin 33)) (fun d => by
      match d with
      | ⟨0, _⟩ => show b.val = 0 + b.val; omega
      | ⟨1, _⟩ => show a.val = 0 + a.val; omega)]
  unfold heads logits
  rw [bpv_lo m c a]
  exact congrArg (fun s : EReal => s + (inp m c).bp (ix1 a)) (Finset.sum_congr rfl fun k _ => by rw [wpv_lo m c k a])

/-- The value: the last column of the fused heads, its unit axis dropped. -/
theorem tail_value (c : Dev nD) :
    Pipeline.afterTail₀ cfgs (dats m) 0 (V0 m) [hostOps1] c main_v16 = value (inp m c) := by
  have e : Pipeline.afterTail₀ cfgs (dats m) 0 (V0 m) [hostOps1] c main_v16
      = shapeCast S32768 (extractStridedSlice S32768x1 ![0, 32]
          (heads (inp m c) (V m c main_v11 : S256x33.Idx → EReal) (V m c main_v12 : S33.Idx → EReal)) slices_S32768x33_S32768x1_0_32)
          shapeCasts_S32768x1_S32768 := by
    unfold Pipeline.afterTail₀
    show StableHlo.after hostOps1 _ (Proc.devRef .tc main_v16) = _
    after_results
    rw [exit13]
    rfl
  rw [e]
  funext i
  obtain ⟨b, rfl⟩ : ∃ (b : Fin 32768), i = ix1 b := ⟨i 0, eq_ix1 i⟩
  rw [shapeCast_apply _ shapeCasts_S32768x1_S32768 (ix1 b) (ix2 b (0 : Fin 1)) (by
      rewrite [Shape.rowMajor_val_two, Shape.rowMajor_val_one]
      show b.val * 1 + 0 = b.val; omega),
    extractStridedSlice_apply ![0, 32] _ slices_S32768x33_S32768x1_0_32 (ix2 b (0 : Fin 1))
      (ix2 b (⟨32, by omega⟩ : Fin 33)) (fun d => by
        match d with
        | ⟨0, _⟩ => show b.val = 0 + b.val; omega
        | ⟨1, _⟩ => rfl)]
  unfold heads value
  rw [bpv_hi m c]
  exact congrArg (fun s : EReal => s + (inp m c).bv (ix1 0)) (Finset.sum_congr rfl fun k _ => by rw [wpv_hi m c k])

/-! ## The kernel's run, read -/

/-- Every weakly fair execution of the kernel program terminates with the three results at the specification's
    values of the argument arrays, and the arguments unchanged. -/
theorem run : θ_run defs (onTc (τ := τ) (main (F := Ideal))) ⟨m, fun _ => 0, ρ⟩ (fun r => ∀ c : Dev nD,
      r.2.mem ((c.tc : Thread nD τ).loc main_v14) = logits (inp m c)
      ∧ r.2.mem ((c.tc : Thread nD τ).loc main_v16) = value (inp m c)
      ∧ r.2.mem ((c.tc : Thread nD τ).loc main_v13_0) = hnew (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨((h c).2 main_v14 (Pipeline.mem_restRefs_of main_v14 (by decide) (by decide))).trans (tail_logits m c),
      ((h c).2 main_v16 (Pipeline.mem_restRefs_of main_v16 (by decide) (by decide))).trans (tail_value m c),
      ((h c).1 12).trans (final12 m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩)
    (run_main m ρ)

end Cert.KernelIdeal.Arr

end
-- ==== Proof.RefRead.lean ====
/-
  The reference, stage by stage, is the specification.

  Its gate pre-activations are dot products against the transposed weights plus a broadcast bias row:
  entry (b, c) is (Σ_k x b k · W c k) + β c. Its sigmoid is spelt negate, exponential, add one, divide
  one by it, with the literal 1.0: the logistic function. The three bands are slices at column offsets
  0, 256, 512, and the two new hidden rows are stacked along a new leading axis.
-/
import proofs.«136802_j40381282517598_2_alg».proof.Proof.Gen.ReferenceIdeal.Read
import proofs.«136802_j40381282517598_2_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.Gru

variable (x0 : S32768x1x128.Idx → EReal) (x1 : S2x32768x256.Idx → EReal)
  (x2 : S768x128.Idx → EReal) (x3 : S768x256.Idx → EReal) (x4 x5 : S768.Idx → EReal)
  (x6 x7 : S768x256.Idx → EReal) (x8 x9 : S768.Idx → EReal)
  (x10 : S32x256.Idx → EReal) (x11 : S32.Idx → EReal) (x12 : S1x256.Idx → EReal) (x13 : S1.Idx → EReal)

/-! ## Layer 0 -/

/-- Hidden layer 0 of batch row b, as the reference slices and reshapes it out of the stacked state. -/
theorem row_v2 (b : Fin 32768) (k : Fin 256) : val_main_v2 (F := Ideal) x1 (ix2 b k) = x1 (ix3 0 b k) := by
  rw [val_main_v2_apply, val_main_v1_apply]
  refine congrArg x1 (funext fun a => Fin.ext ?_)
  match a with
  | ⟨0, _⟩ => rfl
  | ⟨1, _⟩ => show (b.val * 256 + k.val) / 256 % 32768 = b.val; have := k.isLt; have := b.isLt; omega
  | ⟨2, _⟩ => show (b.val * 256 + k.val) % 256 = k.val; have := k.isLt; omega

/-- The input-side pre-activations of layer 0. -/
theorem gate_v7 (b : Fin 32768) (c : Fin 768) :
    val_main_v7 (F := Ideal) x0 x2 x4 (ix2 b c)
      = pre (fun k => x0 (ix3 b 0 k)) (fun c k => x2 (ix2 c k)) (fun c => x4 (ix1 c)) c := by
  rw [val_main_v7_apply, val_main_v4_apply, val_main_v6_apply, val_main_v5_apply]
  refine congrArg₂ (fun s t : EReal => s + t) (Finset.sum_congr rfl fun k _ => ?_) (congrArg x4 ?_)
  · rw [val_main_v0_apply, val_main_v3_apply]
    refine congrArg₂ (fun s t : EReal => s * t) (congrArg x0 (funext fun a => Fin.ext ?_)) (congrArg x2 (funext fun a => Fin.ext ?_))
    · match a with
      | ⟨0, _⟩ => show (b.val * 128 + k.val) / 128 = b.val; have := k.isLt; omega
      | ⟨1, _⟩ => rfl
      | ⟨2, _⟩ => show (b.val * 128 + k.val) % 128 = k.val; have := k.isLt; omega
    · match a with
      | ⟨0, _⟩ => rfl
      | ⟨1, _⟩ => rfl
  · funext a; apply Fin.ext
    match a with
    | ⟨0, _⟩ => rfl

/-- The hidden-side pre-activations of layer 0. -/
theorem gate_v12 (b : Fin 32768) (c : Fin 768) :
    val_main_v12 (F := Ideal) x1 x3 x5 (ix2 b c)
      = pre (fun k => x1 (ix3 0 b k)) (fun c k => x3 (ix2 c k)) (fun c => x5 (ix1 c)) c := by
  rw [val_main_v12_apply, val_main_v9_apply, val_main_v11_apply, val_main_v10_apply]
  refine congrArg₂ (fun s t : EReal => s + t) (Finset.sum_congr rfl fun k _ => ?_) (congrArg x5 ?_)
  · rw [val_main_v8_apply]
    refine congrArg₂ (fun s t : EReal => s * t) (row_v2 x1 b k) (congrArg x3 (funext fun a => Fin.ext ?_))
    match a with
    | ⟨0, _⟩ => rfl
    | ⟨1, _⟩ => rfl
  · funext a; apply Fin.ext
    match a with
    | ⟨0, _⟩ => rfl

/-- Layer 0's cell over the reference's own pre-activation stages. -/
theorem cell_v40 (b : Fin 32768) (q : Fin 256) :
    val_main_v40 (F := Ideal) x0 x1 x2 x3 x4 x5 (ix2 b q)
      = cell (fun c => val_main_v7 (F := Ideal) x0 x2 x4 (ix2 b c)) (fun c => val_main_v12 (F := Ideal) x1 x3 x5 (ix2 b c))
          (fun k => val_main_v2 (F := Ideal) x1 (ix2 b k)) q := by
  have h13 : val_main_v13 (F := Ideal) x0 x2 x4 (ix2 b q) = val_main_v7 (F := Ideal) x0 x2 x4 (ix2 b (lo q)) := by
    rw [val_main_v13_apply]; exact congrArg _ (funext fun a => Fin.ext (by match a with | ⟨0, _⟩ => rfl | ⟨1, _⟩ => rfl))
  have h14 : val_main_v14 (F := Ideal) x0 x2 x4 (ix2 b q) = val_main_v7 (F := Ideal) x0 x2 x4 (ix2 b (mid q)) := by
    rw [val_main_v14_apply]; exact congrArg _ (funext fun a => Fin.ext (by match a with | ⟨0, _⟩ => rfl | ⟨1, _⟩ => rfl))
  have h15 : val_main_v15 (F := Ideal) x0 x2 x4 (ix2 b q) = val_main_v7 (F := Ideal) x0 x2 x4 (ix2 b (hi q)) := by
    rw [val_main_v15_apply]; exact congrArg _ (funext fun a => Fin.ext (by match a with | ⟨0, _⟩ => rfl | ⟨1, _⟩ => rfl))
  have h16 : val_main_v16 (F := Ideal) x1 x3 x5 (ix2 b q) = val_main_v12 (F := Ideal) x1 x3 x5 (ix2 b (lo q)) := by
    rw [val_main_v16_apply]; exact congrArg _ (funext fun a => Fin.ext (by match a with | ⟨0, _⟩ => rfl | ⟨1, _⟩ => rfl))
  have h17 : val_main_v17 (F := Ideal) x1 x3 x5 (ix2 b q) = val_main_v12 (F := Ideal) x1 x3 x5 (ix2 b (mid q)) := by
    rw [val_main_v17_apply]; exact congrArg _ (funext fun a => Fin.ext (by match a with | ⟨0, _⟩ => rfl | ⟨1, _⟩ => rfl))
  have h18 : val_main_v18 (F := Ideal) x1 x3 x5 (ix2 b q) = val_main_v12 (F := Ideal) x1 x3 x5 (ix2 b (hi q)) := by
    rw [val_main_v18_apply]; exact congrArg _ (funext fun a => Fin.ext (by match a with | ⟨0, _⟩ => rfl | ⟨1, _⟩ => rfl))
  unfold cell
  beta_reduce
  rw [← h13, ← h14, ← h15, ← h16, ← h17, ← h18, ← logistic_lit, ← logistic_lit]
  rfl

/-! ## Layer 1 -/

/-- Hidden layer 1 of batch row b. -/
theorem row_v42 (b : Fin 32768) (k : Fin 256) : val_main_v42 (F := Ideal) x1 (ix2 b k) = x1 (ix3 1 b k) := by
  rw [val_main_v42_apply, val_main_v41_apply]
  refine congrArg x1 (funext fun a => Fin.ext ?_)
  match a with
  | ⟨0, _⟩ => rfl
  | ⟨1, _⟩ => show (b.val * 256 + k.val) / 256 % 32768 = b.val; have := k.isLt; have := b.isLt; omega
  | ⟨2, _⟩ => show (b.val * 256 + k.val) % 256 = k.val; have := k.isLt; omega

/-- The input-side pre-activations of layer 1, fed layer 0's new row. -/
theorem gate_v47 (b : Fin 32768) (c : Fin 768) :
    val_main_v47 (F := Ideal) x0 x1 x2 x3 x4 x5 x6 x8 (ix2 b c)
      = pre (fun k => val_main_v40 (F := Ideal) x0 x1 x2 x3 x4 x5 (ix2 b k)) (fun c k => x6 (ix2 c k)) (fun c => x8 (ix1 c)) c := by
  rw [val_main_v47_apply, val_main_v44_apply, val_main_v46_apply, val_main_v45_apply]
  refine congrArg₂ (fun s t : EReal => s + t) (Finset.sum_congr rfl fun k _ => ?_) (congrArg x8 ?_)
  · rw [val_main_v43_apply]
    refine congrArg₂ (fun s t : EReal => s * t) (congrArg _ (funext fun a => Fin.ext ?_)) (congrArg x6 (funext fun a => Fin.ext ?_))
    · match a with
      | ⟨0, _⟩ => rfl
      | ⟨1, _⟩ => rfl
    · match a with
      | ⟨0, _⟩ => rfl
      | ⟨1, _⟩ => rfl
  · funext a; apply Fin.ext
    match a with
    | ⟨0, _⟩ => rfl

/-- The hidden-side pre-activations of layer 1. -/
theorem gate_v52 (b : Fin 32768) (c : Fin 768) :
    val_main_v52 (F := Ideal) x1 x7 x9 (ix2 b c)
      = pre (fun k => x1 (ix3 1 b k)) (fun c k => x7 (ix2 c k)) (fun c => x9 (ix1 c)) c := by
  rw [val_main_v52_apply, val_main_v49_apply, val_main_v51_apply, val_main_v50_apply]
  refine congrArg₂ (fun s t : EReal => s + t) (Finset.sum_congr rfl fun k _ => ?_) (congrArg x9 ?_)
  · rw [val_main_v48_apply]
    refine congrArg₂ (fun s t : EReal => s * t) (row_v42 x1 b k) (congrArg x7 (funext fun a => Fin.ext ?_))
    match a with
    | ⟨0, _⟩ => rfl
    | ⟨1, _⟩ => rfl
  · funext a; apply Fin.ext
    match a with
    | ⟨0, _⟩ => rfl

/-- Layer 1's cell over the reference's own pre-activation stages. -/
theorem cell_v80 (b : Fin 32768) (q : Fin 256) :
    val_main_v80 (F := Ideal) x0 x1 x2 x3 x4 x5 x6 x7 x8 x9 (ix2 b q)
      = cell (fun c => val_main_v47 (F := Ideal) x0 x1 x2 x3 x4 x5 x6 x8 (ix2 b c)) (fun c => val_main_v52 (F := Ideal) x1 x7 x9 (ix2 b c))
          (fun k => val_main_v42 (F := Ideal) x1 (ix2 b k)) q := by
  have h53 : val_main_v53 (F := Ideal) x0 x1 x2 x3 x4 x5 x6 x8 (ix2 b q) = val_main_v47 (F := Ideal) x0 x1 x2 x3 x4 x5 x6 x8 (ix2 b (lo q)) := by
    rw [val_main_v53_apply]; exact congrArg _ (funext fun a => Fin.ext (by match a with | ⟨0, _⟩ => rfl | ⟨1, _⟩ => rfl))
  have h54 : val_main_v54 (F := Ideal) x0 x1 x2 x3 x4 x5 x6 x8 (ix2 b q) = val_main_v47 (F := Ideal) x0 x1 x2 x3 x4 x5 x6 x8 (ix2 b (mid q)) := by
    rw [val_main_v54_apply]; exact congrArg _ (funext fun a => Fin.ext (by match a with | ⟨0, _⟩ => rfl | ⟨1, _⟩ => rfl))
  have h55 : val_main_v55 (F := Ideal) x0 x1 x2 x3 x4 x5 x6 x8 (ix2 b q) = val_main_v47 (F := Ideal) x0 x1 x2 x3 x4 x5 x6 x8 (ix2 b (hi q)) := by
    rw [val_main_v55_apply]; exact congrArg _ (funext fun a => Fin.ext (by match a with | ⟨0, _⟩ => rfl | ⟨1, _⟩ => rfl))
  have h56 : val_main_v56 (F := Ideal) x1 x7 x9 (ix2 b q) = val_main_v52 (F := Ideal) x1 x7 x9 (ix2 b (lo q)) := by
    rw [val_main_v56_apply]; exact congrArg _ (funext fun a => Fin.ext (by match a with | ⟨0, _⟩ => rfl | ⟨1, _⟩ => rfl))
  have h57 : val_main_v57 (F := Ideal) x1 x7 x9 (ix2 b q) = val_main_v52 (F := Ideal) x1 x7 x9 (ix2 b (mid q)) := by
    rw [val_main_v57_apply]; exact congrArg _ (funext fun a => Fin.ext (by match a with | ⟨0, _⟩ => rfl | ⟨1, _⟩ => rfl))
  have h58 : val_main_v58 (F := Ideal) x1 x7 x9 (ix2 b q) = val_main_v52 (F := Ideal) x1 x7 x9 (ix2 b (hi q)) := by
    rw [val_main_v58_apply]; exact congrArg _ (funext fun a => Fin.ext (by match a with | ⟨0, _⟩ => rfl | ⟨1, _⟩ => rfl))
  unfold cell
  beta_reduce
  rw [← h53, ← h54, ← h55, ← h56, ← h57, ← h58, ← logistic_lit, ← logistic_lit]
  rfl

/-! ## The two new hidden rows are the specification's -/

/-- The arguments as the specification's record. -/
abbrev inp : Inp := ⟨x0, x1, x2, x3, x4, x5, x6, x7, x8, x9, x10, x11, x12, x13⟩

theorem v40_eq (b : Fin 32768) (q : Fin 256) :
    val_main_v40 (F := Ideal) x0 x1 x2 x3 x4 x5 (ix2 b q) = H0 (inp x0 x1 x2 x3 x4 x5 x6 x7 x8 x9 x10 x11 x12 x13) b q := by
  rw [cell_v40]
  unfold H0
  exact cell_congr (fun c => gate_v7 x0 x2 x4 b c) (fun c => gate_v12 x1 x3 x5 b c) (fun k => row_v2 x1 b k) q

theorem v80_eq (b : Fin 32768) (q : Fin 256) :
    val_main_v80 (F := Ideal) x0 x1 x2 x3 x4 x5 x6 x7 x8 x9 (ix2 b q) = H1 (inp x0 x1 x2 x3 x4 x5 x6 x7 x8 x9 x10 x11 x12 x13) b q := by
  rw [cell_v80]
  unfold H1
  exact cell_congr
    (fun c => (gate_v47 x0 x1 x2 x3 x4 x5 x6 x8 b c).trans
      (pre_congr _ _ (fun k => v40_eq x0 x1 x2 x3 x4 x5 x6 x7 x8 x9 x10 x11 x12 x13 b k) c))
    (fun c => gate_v52 x1 x7 x9 b c) (fun k => row_v42 x1 b k) q

/-! ## The three results -/

/-- The policy head. -/
theorem logits_eq :
    val_main_v85 (F := Ideal) x0 x1 x2 x3 x4 x5 x6 x7 x8 x9 x10 x11 = logits (inp x0 x1 x2 x3 x4 x5 x6 x7 x8 x9 x10 x11 x12 x13) := by
  funext i
  obtain ⟨b, a, rfl⟩ : ∃ (b : Fin 32768) (a : Fin 32), i = ix2 b a := ⟨i 0, i 1, eq_ix2 i⟩
  rw [val_main_v85_apply, val_main_v82_apply, val_main_v84_apply, val_main_v83_apply]
  unfold logits
  refine congrArg₂ (fun s t : EReal => s + t) (Finset.sum_congr rfl fun k _ => ?_) (congrArg x11 ?_)
  · rw [val_main_v81_apply]
    refine congrArg₂ (fun s t : EReal => s * t) ?_ (congrArg x10 (funext fun a' => Fin.ext ?_))
    · exact (congrArg _ (funext fun a' => Fin.ext (by match a' with | ⟨0, _⟩ => rfl | ⟨1, _⟩ => rfl))).trans
        (v80_eq x0 x1 x2 x3 x4 x5 x6 x7 x8 x9 x10 x11 x12 x13 b k)
    · match a' with
      | ⟨0, _⟩ => rfl
      | ⟨1, _⟩ => rfl
  · funext a'; apply Fin.ext
    match a' with
    | ⟨0, _⟩ => rfl

/-- The value head. -/
theorem value_eq :
    val_main_v91 (F := Ideal) x0 x1 x2 x3 x4 x5 x6 x7 x8 x9 x12 x13 = value (inp x0 x1 x2 x3 x4 x5 x6 x7 x8 x9 x10 x11 x12 x13) := by
  funext i
  obtain ⟨b, rfl⟩ : ∃ (b : Fin 32768), i = ix1 b := ⟨i 0, eq_ix1 i⟩
  rw [val_main_v91_apply, val_main_v90_apply, val_main_v87_apply, val_main_v89_apply, val_main_v88_apply]
  unfold value
  refine congrArg₂ (fun s t : EReal => s + t) (Finset.sum_congr rfl fun k _ => ?_) (congrArg x13 ?_)
  · rw [val_main_v86_apply]
    refine congrArg₂ (fun s t : EReal => s * t) ?_ (congrArg x12 (funext fun a' => Fin.ext ?_))
    · exact (congrArg _ (funext fun a' => Fin.ext (by
        match a' with
        | ⟨0, _⟩ => show b.val / 1 = b.val; omega
        | ⟨1, _⟩ => rfl))).trans
        (v80_eq x0 x1 x2 x3 x4 x5 x6 x7 x8 x9 x10 x11 x12 x13 b k)
    · match a' with
      | ⟨0, _⟩ => rfl
      | ⟨1, _⟩ => rfl
  · funext a'; apply Fin.ext
    match a' with
    | ⟨0, _⟩ => rfl

/-- The new hidden state: the stack of the two rows. -/
theorem hnew_eq :
    val_main_v94 (F := Ideal) x0 x1 x2 x3 x4 x5 x6 x7 x8 x9 = hnew (inp x0 x1 x2 x3 x4 x5 x6 x7 x8 x9 x10 x11 x12 x13) := by
  funext i
  obtain ⟨l, b, q, rfl⟩ : ∃ (l : Fin 2) (b : Fin 32768) (q : Fin 256), i = ix3 l b q := ⟨i 0, i 1, i 2, eq_ix3 i⟩
  unfold val_main_v94 hnew
  match l with
  | ⟨0, _⟩ =>
    rw [concatenate_pair_apply_left (t := S2x32768x256) (s₁ := S1x32768x256) (s₂ := S1x32768x256) (0 : Fin 3) _ _ concatenates_S1x32768x256_S1x32768x256_S2x32768x256_d0
      (ix3 (⟨0, by omega⟩ : Fin 2) b q) rfl (ix3 (0 : Fin 1) b q) (fun a => by
        match a with
        | ⟨0, _⟩ => rfl
        | ⟨1, _⟩ => rfl
        | ⟨2, _⟩ => rfl)]
    rw [val_main_v92_apply]
    exact (congrArg _ (funext fun a' => Fin.ext (by match a' with | ⟨0, _⟩ => rfl | ⟨1, _⟩ => rfl))).trans
      (v40_eq x0 x1 x2 x3 x4 x5 x6 x7 x8 x9 x10 x11 x12 x13 b q)
  | ⟨1, _⟩ =>
    rw [concatenate_pair_apply_right (t := S2x32768x256) (s₁ := S1x32768x256) (s₂ := S1x32768x256) (0 : Fin 3) _ _ concatenates_S1x32768x256_S1x32768x256_S2x32768x256_d0
      (ix3 (⟨1, by omega⟩ : Fin 2) b q) rfl rfl (ix3 (0 : Fin 1) b q) (fun a ha => by
        match a with
        | ⟨0, _⟩ => exact absurd rfl ha
        | ⟨1, _⟩ => rfl
        | ⟨2, _⟩ => rfl) rfl]
    rw [val_main_v93_apply]
    exact (congrArg _ (funext fun a' => Fin.ext (by match a' with | ⟨0, _⟩ => rfl | ⟨1, _⟩ => rfl))).trans
      (v80_eq x0 x1 x2 x3 x4 x5 x6 x7 x8 x9 x10 x11 x12 x13 b q)

end Cert.ReferenceIdeal.RefValue

end
-- ==== Proof.lean ====
/-
  One step of a two-layer stacked GRU with a policy and a value head: a Pallas kernel over 32 blocks of 1024 batch
  rows against its jnp reference, equal as extended reals.

  Both programs compute, for every batch row, the same expression: the gate pre-activations are sums
  Σ_k x k · W c k plus a bias (the kernel multiplies by the transposed weights, staged once; the reference
  contracts against the transpose it takes itself), the sigmoid is the logistic function on both sides (the
  reference spells it 1 / (1 + e^(−t)) with the literal 1.0, which is the real number one), tanh is tanh, and a
  change of float format is the identity on the extended reals. The kernel fuses the two heads into one matrix
  [w_p; w_v] and one bias [b_p; b_v] and slices the result apart afterwards; the reference computes them
  separately. So the kernel's three results (read off its frame run block by block, then through the host
  operations after the region) and the reference's three results (read off its run stage by stage) are one
  function of the fourteen arguments — the specification in Proof/Spec.lean — and no input needs to be finite
  for that: the precondition is not used. The ideal pass rewrote nothing, so "preserves" has nothing to state.
-/
import proofs.«136802_j40381282517598_2_alg».proof.Defs
import proofs.«136802_j40381282517598_2_alg».proof.Proof.Gen.Kernel
import proofs.«136802_j40381282517598_2_alg».proof.Proof.Gen.Kernel.Skeleton
import proofs.«136802_j40381282517598_2_alg».proof.Proof.Gen.Kernel.Launch
import proofs.«136802_j40381282517598_2_alg».proof.Proof.Gen.Kernel.Points
import proofs.«136802_j40381282517598_2_alg».proof.Proof.Gen.Kernel.Frame
import proofs.«136802_j40381282517598_2_alg».proof.Proof.Gen.KernelIdeal
import proofs.«136802_j40381282517598_2_alg».proof.Proof.Gen.KernelIdeal.Skeleton
import proofs.«136802_j40381282517598_2_alg».proof.Proof.Gen.KernelIdeal.Launch
import proofs.«136802_j40381282517598_2_alg».proof.Proof.Gen.KernelIdeal.Points
import proofs.«136802_j40381282517598_2_alg».proof.Proof.Gen.KernelIdeal.Frame
import proofs.«136802_j40381282517598_2_alg».proof.Proof.Gen.ReferenceIdeal
import proofs.«136802_j40381282517598_2_alg».proof.Proof.Gen.Pre_finite_inputs
import proofs.«136802_j40381282517598_2_alg».proof.Proof.Gen.ReferenceIdeal.Run
import proofs.«136802_j40381282517598_2_alg».proof.Proof.Gen.ReferenceIdeal.Read
import proofs.«136802_j40381282517598_2_alg».proof.Proof.KArr
import proofs.«136802_j40381282517598_2_alg».proof.Proof.RefRead
import Idealize.ShloMosaic.Adequacy
import Idealize.ShloMosaic.Init

noncomputable section

namespace Cert.Proof

open Idealize.ShloMosaic Idealize.SL.Sem Cert.Gru

/-- The kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with its results forgotten. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs end with the specification's logits, value and new hidden state of the arguments. -/
theorem algebraic : Cert.algebraic_KernelIdeal_ReferenceIdeal := by
  intro m ρ m' ρ' _ hagree
  refine ⟨fun c => logits (Cert.KernelIdeal.Arr.inp m c), fun c => value (Cert.KernelIdeal.Arr.inp m c),
    fun c => hnew (Cert.KernelIdeal.Arr.inp m c), Cert.KernelIdeal.Arr.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13⟩ := hagree c
  have hinp : Cert.ReferenceIdeal.RefValue.inp
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = Cert.KernelIdeal.Arr.inp m c := by
    rw [a0, a1, a2, a3, a4, a5, a6, a7, a8, a9, a10, a11, a12, a13]
  exact ⟨(h c).1.trans ((Cert.ReferenceIdeal.Read.val_main_v85_eq m' c).trans
      ((Cert.ReferenceIdeal.RefValue.logits_eq _ _ _ _ _ _ _ _ _ _ _ _ _ _).trans (congrArg logits hinp))),
    (h c).2.1.trans ((Cert.ReferenceIdeal.Read.val_main_v91_eq m' c).trans
      ((Cert.ReferenceIdeal.RefValue.value_eq _ _ _ _ _ _ _ _ _ _ _ _ _ _).trans (congrArg value hinp))),
    (h c).2.2.1.trans ((Cert.ReferenceIdeal.Read.val_main_v94_eq m' c).trans
      ((Cert.ReferenceIdeal.RefValue.hnew_eq _ _ _ _ _ _ _ _ _ _ _ _ _ _).trans (congrArg hnew hinp))),
    (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
